-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v69)) (v1 : (c : Dev Cert.KernelIdeal.nD) → Buf (Elt Ideal) ((c.tc : Thread Cert.KernelIdeal.nD Cert.KernelIdeal.τ).loc Cert.KernelIdeal.main_v69)) (v2 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_v69) = v1 c
          ∧ r.2.mem ((c.tc : Thread Cert.KernelIdeal.nD Cert.KernelIdeal.τ).loc Cert.KernelIdeal.main_v72) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v123) = v1 c
          ∧ r.2.mem ((c.tc : Thread Cert.ReferenceIdeal.nD Cert.ReferenceIdeal.τ).loc Cert.ReferenceIdeal.main_v126) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000x64 : Shape := ⟨2, ![50000, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S50000x64 : S_.BroadcastsInDim S50000x64 (![] : Fin 0 → Fin S50000x64.rank)
  reducesTo_S50000x64_S_d0_1 : S50000x64.ReducesTo [0, 1] S_

variable [Facts]

def fn_part2 {F : FTy → Type} [FloatOps F] (main_arg8 : FVec F S50000x64 .f32) (main_v33 : IVec S_ 1) : IVec S_ 1 :=
  let main_v34 : FVec F S50000x64 .f32 := Host.absf main_arg8
  let main_cst_12 : FVec F S_ .f32 := constant S_ .f32 0x7F800000#32
  let main_v35 : FVec F S50000x64 .f32 := broadcastInDim S50000x64 ![] bcast_S_S50000x64 main_cst_12
  let main_v36 : IVec S50000x64 1 := cmpf .olt main_v34 main_v35
  let main_c_13 : IVec S_ 1 := constantI S_ 1 1#1
  let main_v37 : IVec S_ 1 := (fun x v => Host.reduce IntOp.andi x v reducesTo_S50000x64_S_d0_1 h_S_) main_v36 main_c_13
  let main_v38 : IVec S_ 1 := andi main_v33 main_v37
  main_v38

def fn_part1 {F : FTy → Type} [FloatOps F] (main_arg5 : FVec F S64 .f32) (main_arg6 : FVec F S128x64 .f32) (main_arg7 : FVec F S64 .f32) (main_arg8 : FVec F S50000x64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) (main_arg6 : FVec F S128x64 .f32) (main_arg7 : FVec F S64 .f32) (main_arg8 : FVec F S50000x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000x64 : Shape := ⟨2, ![50000, 64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S10000x128 : Shape := ⟨2, ![10000, 128]⟩
abbrev S10000x1 : Shape := ⟨2, ![10000, 1]⟩
abbrev S800000x128 : Shape := ⟨2, ![800000, 128]⟩
abbrev S1x128 : Shape := ⟨2, ![1, 128]⟩
abbrev S10000x64 : Shape := ⟨2, ![10000, 64]⟩
abbrev S800000x64 : Shape := ⟨2, ![800000, 64]⟩
abbrev S1x64 : Shape := ⟨2, ![1, 64]⟩

abbrev nBuf : Space → Nat
  | .hbm => 100
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S50000x64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000, .f32⟩
  | .hbm, ⟨45, _⟩ => ⟨S800000, .f32⟩
  | .hbm, ⟨46, _⟩ => ⟨S50000x128, .bf16⟩
  | .hbm, ⟨47, _⟩ => ⟨S128x128, .bf16⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S800000x1, .f32⟩
  | .hbm, ⟨60, _⟩ => ⟨S800000x128, .f32⟩
  | .hbm, ⟨61, _⟩ => ⟨S800000x128, .f32⟩
  | .hbm, ⟨62, _⟩ => ⟨S_, .f32⟩
  | .hbm, ⟨63, _⟩ => ⟨S50000x128, .f32⟩
  | .hbm, ⟨64, _⟩ => ⟨S800000x1, .i32⟩
  | .hbm, ⟨65, _⟩ => ⟨S50000x128, .f32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S50000x128, .f32⟩
  | .hbm, ⟨72, _⟩ => ⟨S50000x128, .f32⟩
  | .hbm, ⟨73, _⟩ => ⟨S50000x128, .bf16⟩
  | .hbm, ⟨74, _⟩ => ⟨S128x64, .bf16⟩
  | .hbm, ⟨75, _⟩ => ⟨S50000x64, .f32⟩
  | .hbm, ⟨76, _⟩ => ⟨S50000x64, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x64, .f32⟩
  | .hbm, ⟨86, _⟩ => ⟨S800000x1, .f32⟩
  | .hbm, ⟨87, _⟩ => ⟨S800000x64, .f32⟩
  | .hbm, ⟨88, _⟩ => ⟨S800000x64, .f32⟩
  | .hbm, ⟨89, _⟩ => ⟨S_, .f32⟩
  | .hbm, ⟨90, _⟩ => ⟨S50000x64, .f32⟩
  | .hbm, ⟨91, _⟩ => ⟨S800000x1, .i32⟩
  | .hbm, ⟨92, _⟩ => ⟨S50000x64, .f32⟩
  | .hbm, ⟨93, _⟩ => ⟨S50000x64, .f32⟩
  | .hbm, ⟨94, _⟩ => ⟨S1x64, .f32⟩
  | .hbm, ⟨95, _⟩ => ⟨S50000x64, .f32⟩
  | .hbm, ⟨96, _⟩ => ⟨S50000x64, .f32⟩
  | .hbm, ⟨97, _⟩ => ⟨S50000x64, .f32⟩
  | .hbm, ⟨98, _⟩ => ⟨S50000x64, .f32⟩
  | .hbm, ⟨99, _⟩ => ⟨S50000x64, .f32⟩
  | .local _ .vmem, ⟨0, _⟩ => ⟨S10000x128, .bf16⟩
  | .local _ .vmem, ⟨1, _⟩ => ⟨S10000x128, .bf16⟩
  | .local _ .vmem, ⟨2, _⟩ => ⟨S128x128, .bf16⟩
  | .local _ .vmem, ⟨3, _⟩ => ⟨S10000x1, .f32⟩
  | .local _ .vmem, ⟨4, _⟩ => ⟨S10000x1, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .bf16⟩
  | .local _ .vmem, ⟨10, _⟩ => ⟨S10000x128, .bf16⟩
  | .local _ .vmem, ⟨11, _⟩ => ⟨S128x64, .bf16⟩
  | .local _ .vmem, ⟨12, _⟩ => ⟨S10000x1, .f32⟩
  | .local _ .vmem, ⟨13, _⟩ => ⟨S10000x1, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31_0 : Ref sig .tc := ⟨.hbm, 48, rfl⟩
abbrev main_v31_1 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_call0_cst : Ref sig .tc := ⟨.hbm, 70, rfl⟩
abbrev main_call0_v0 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52_0 : Ref sig .tc := ⟨.hbm, 75, rfl⟩
abbrev main_v52_1 : Ref sig .tc := ⟨.hbm, 76, rfl⟩
abbrev main_c_9 : Ref sig .tc := ⟨.hbm, 77, rfl⟩
abbrev main_v53 : Ref sig .tc := ⟨.hbm, 78, rfl⟩
abbrev main_v54 : Ref sig .tc := ⟨.hbm, 79, rfl⟩
abbrev main_c_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_11 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S10000x64_S10000x64_0_0 : ∀ a, (![0, 0] : Fin 2 → Nat) a + S10000x64.size a ≤ S10000x64.size a
  h_S10000x64 : 0 < S10000x64.numel
  broadcasts_S10000x1_S10000x64 : S10000x1.Broadcasts S10000x64
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S10000x128_S128x128_S10000x128_1_0_0_1_n_n_wf : DotDims.WF S10000x128 S128x128 S10000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S10000x128_S128x64_S10000x64_1_0_0_1_n_n_wf : DotDims.WF S10000x128 S128x64 S10000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .bf16 = 32 ∨ (Rect.block (s := S50000x128) S10000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S50000x1.size a
  hwx0_2 : ∀ i : grid0.Coords, EltTy.bits .f32 = 32 ∨ (Rect.block (s := S50000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S50000x128.size a
  hwx0_3 : ∀ i : grid0.Coords, EltTy.bits .f32 = 32 ∨ (Rect.block (s := S50000x128) S10000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S50000x128.size a
  hwx0_4 : ∀ i : grid0.Coords, EltTy.bits .f32 = 32 ∨ (Rect.block (s := S50000x128) S10000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .bf16 = 32 ∨ (Rect.block (s := S50000x128) S10000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .bf16 = 32 ∨ (Rect.block (s := S128x64) S128x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S50000x1.size a
  hwx1_2 : ∀ i : grid1.Coords, EltTy.bits .f32 = 32 ∨ (Rect.block (s := S50000x1) S10000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S50000x64.size a
  hwx1_3 : ∀ i : grid1.Coords, EltTy.bits .f32 = 32 ∨ (Rect.block (s := S50000x64) S10000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S50000x64.size a
  hwx1_4 : ∀ i : grid1.Coords, EltTy.bits .f32 = 32 ∨ (Rect.block (s := S50000x64) S10000x64.size (cc1_transform_4 i) (hinb1_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v29) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31_0) S10000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v31_1) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v50) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v52_0) S10000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v52_1) S10000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000x64 : Shape := ⟨2, ![50000, 64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S800000x64 : Shape := ⟨2, ![800000, 64]⟩
abbrev S1x64 : Shape := ⟨2, ![1, 64]⟩

abbrev nBuf : Space → Nat
  | .hbm => 163
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x64, .f32⟩
  | 5 => ⟨S64, .f32⟩
  | 6 => ⟨S128x64, .f32⟩
  | 7 => ⟨S64, .f32⟩
  | 8 => ⟨S50000x64, .f32⟩
  | 9 => ⟨S1x800000, .i32⟩
  | 10 => ⟨S800000, .i32⟩
  | 11 => ⟨S1x800000, .i32⟩
  | 12 => ⟨S800000, .i32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S_, .f32⟩
  | 23 => ⟨S50000, .f32⟩
  | 24 => ⟨S50000, .f32⟩
  | 25 => ⟨S50000x128, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S800000x1, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S800000x128, .f32⟩
  | 56 => ⟨S800000x128, .f32⟩
  | 57 => ⟨S_, .f32⟩
  | 58 => ⟨S50000x128, .f32⟩
  | 59 => ⟨S800000x1, .i32⟩
  | 60 => ⟨S50000x128, .f32⟩
  | 61 => ⟨S50000, .f32⟩
  | 62 => ⟨S50000x1, .f32⟩
  | 63 => ⟨S50000x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x64, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000, .f32⟩
  | 91 => ⟨S800000, .f32⟩
  | 92 => ⟨S800000x1, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x64, .f32⟩
  | 102 => ⟨S800000x64, .f32⟩
  | 103 => ⟨S800000x64, .f32⟩
  | 104 => ⟨S_, .f32⟩
  | 105 => ⟨S50000x64, .f32⟩
  | 106 => ⟨S800000x1, .i32⟩
  | 107 => ⟨S50000x64, .f32⟩
  | 108 => ⟨S50000, .f32⟩
  | 109 => ⟨S50000x1, .f32⟩
  | 110 => ⟨S50000x64, .f32⟩
  | 111 => ⟨S50000x64, .f32⟩
  | 112 => ⟨S50000x64, .f32⟩
  | 113 => ⟨S1x64, .f32⟩
  | 114 => ⟨S50000x64, .f32⟩
  | 115 => ⟨S50000x64, .f32⟩
  | 116 => ⟨S50000x64, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000, .f32⟩
  | 126 => ⟨S_, .i32⟩
  | 127 => ⟨S800000, .i32⟩
  | _ => ⟨S50000x128, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000, .f32⟩
  | 7 => ⟨S800000, .f32⟩
  | 8 => ⟨S800000x1, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000x64, .f32⟩
  | 18 => ⟨S800000x64, .f32⟩
  | 19 => ⟨S800000x64, .f32⟩
  | 20 => ⟨S_, .f32⟩
  | 21 => ⟨S50000x64, .f32⟩
  | 22 => ⟨S800000x1, .i32⟩
  | 23 => ⟨S50000x64, .f32⟩
  | 24 => ⟨S50000, .f32⟩
  | 25 => ⟨S50000x1, .f32⟩
  | 26 => ⟨S50000x64, .f32⟩
  | 27 => ⟨S50000x64, .f32⟩
  | 28 => ⟨S50000x64, .f32⟩
  | 29 => ⟨S1x64, .f32⟩
  | 30 => ⟨S50000x64, .f32⟩
  | 31 => ⟨S50000x64, .f32⟩
  | 32 => ⟨S50000x64, .f32⟩
  | 33 => ⟨S50000x64, .f32⟩
  | 34 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_c_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call0_cst : Ref sig .tc := ⟨.hbm, 69, rfl⟩
abbrev main_call0_v0 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_11 : Ref sig .tc := ⟨.hbm, 82, rfl⟩
abbrev main_v58 : Ref sig .tc := ⟨.hbm, 83, rfl⟩
abbrev main_v59 : Ref sig .tc := ⟨.hbm, 84, rfl⟩
abbrev main_c_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_13 : Ref sig .tc := ⟨.hbm, 93, rfl⟩
abbrev main_v67 : Ref sig .tc := ⟨.hbm, 94, rfl⟩
abbrev main_v68 : Ref sig .tc := ⟨.hbm, 95, rfl⟩
abbrev main_c_14 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_c_16 : Ref sig .tc := ⟨.hbm, 117, rfl⟩
abbrev main_v88 : Ref sig .tc := ⟨.hbm, 118, rfl⟩
abbrev main_v89 : Ref sig .tc := ⟨.hbm, 119, rfl⟩
abbrev main_c_17 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_c_18 : Ref sig .tc := ⟨.hbm, 126, rfl⟩
abbrev main_v95 : Ref sig .tc := ⟨.hbm, 127, rfl⟩
abbrev main_v96 : Ref sig .tc := ⟨.hbm, 128, rfl⟩
abbrev main_c_19 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_c_20 : Ref sig .tc := ⟨.hbm, 137, rfl⟩
abbrev main_v104 : Ref sig .tc := ⟨.hbm, 138, rfl⟩
abbrev main_v105 : Ref sig .tc := ⟨.hbm, 139, rfl⟩
abbrev main_c_21 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_22 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KRun.lean ====
/-
  The idealized kernel's whole run, read back at EVERY buffer.

  @main is seven segments: a stretch of host operations, the first dense-transform launch, three host stretches
  (the edge aggregation of layer one, the rectifier, the casts), the second launch, and a last host stretch (the
  aggregation of layer two and the reparameterisation). The contents of the TensorCore's buffers at each segment
  boundary are a fold from the launch memory: a host stretch applies its operations, a launch leaves each of its
  output arrays at what its grid points wrote back and every other buffer as it found it. The launch theorem for a
  program of several regions, over those segments, ends with every unscoped buffer of every core at the last
  boundary's contents; here that reading is kept whole, so that the result buffers (and not only the arguments)
  can be named afterwards.
-/
import proofs.«113243_j4071628996675_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in every final state each unscoped
    buffer of each core holds the last boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The same run read at one TensorCore buffer that no scope owns. -/
theorem run_at : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W7 m ρ c (Proc.devRef .tc b)) :=
  (θ_run defs _ _).mono (fun _ h c b hb => h c _ (mem_uc b hb)) (run_all m ρ)

end Cert.KernelIdeal.Whole

end
-- ==== Proof.Spec.lean ====
/-
  What one dense launch leaves, as whole-array functions of its three operand arrays.

  The launch is over 50000 node rows in five blocks of 10000. At a row `p` and a feature `q` its first output is
  the plain matrix product  Σ_k X[p,k] · W[k,q]  (128 terms), and its second output is that product times the
  row's entry of a one-column array `D` (the squared inverse root degree). Both are stated over literal shapes;
  the width of the output (128 for layer one, 64 for layer two) is the only difference between the two layers.
-/
import Idealize.ShloMosaic.PureOps.Ideal
import Idealize.ShloMosaic.Lib.ValueIdx

noncomputable section

namespace Cert.Dense

open Idealize.ShloMosaic Idealize.ShloMosaic.ValueIdx

/-- Layer one's product at a row and a feature. -/
def dot128 (X : (⟨2, ![50000, 128]⟩ : Shape).Idx → EReal) (W : (⟨2, ![128, 128]⟩ : Shape).Idx → EReal)
    (p : Fin 50000) (q : Fin 128) : EReal :=
  ∑ k : Fin 128, X (ix2 p k) * W (ix2 k q)

/-- Layer one's transformed features. -/
def prod128 (X : (⟨2, ![50000, 128]⟩ : Shape).Idx → EReal) (W : (⟨2, ![128, 128]⟩ : Shape).Idx → EReal) :
    (⟨2, ![50000, 128]⟩ : Shape).Idx → EReal :=
  fun i => dot128 X W (i 0) (i 1)

/-- Layer one's self-loop term: each row of the product times that row's entry of the column `D`. -/
def self128 (X : (⟨2, ![50000, 128]⟩ : Shape).Idx → EReal) (W : (⟨2, ![128, 128]⟩ : Shape).Idx → EReal)
    (D : (⟨2, ![50000, 1]⟩ : Shape).Idx → EReal) : (⟨2, ![50000, 128]⟩ : Shape).Idx → EReal :=
  fun i => dot128 X W (i 0) (i 1) * D (ix2 (i 0) (0 : Fin 1))

/-- Layer two's product at a row and a feature. -/
def dot64 (X : (⟨2, ![50000, 128]⟩ : Shape).Idx → EReal) (W : (⟨2, ![128, 64]⟩ : Shape).Idx → EReal)
    (p : Fin 50000) (q : Fin 64) : EReal :=
  ∑ k : Fin 128, X (ix2 p k) * W (ix2 k q)

/-- Layer two's transformed features. -/
def prod64 (X : (⟨2, ![50000, 128]⟩ : Shape).Idx → EReal) (W : (⟨2, ![128, 64]⟩ : Shape).Idx → EReal) :
    (⟨2, ![50000, 64]⟩ : Shape).Idx → EReal :=
  fun i => dot64 X W (i 0) (i 1)

/-- Layer two's self-loop term. -/
def self64 (X : (⟨2, ![50000, 128]⟩ : Shape).Idx → EReal) (W : (⟨2, ![128, 64]⟩ : Shape).Idx → EReal)
    (D : (⟨2, ![50000, 1]⟩ : Shape).Idx → EReal) : (⟨2, ![50000, 64]⟩ : Shape).Idx → EReal :=
  fun i => dot64 X W (i 0) (i 1) * D (ix2 (i 0) (0 : Fin 1))

end Cert.Dense

end
-- ==== Proof.Region0.lean ====
/-
  What launch 0 of the dense transform leaves in its two output arrays.

  The body loads a block of 10000 node rows (all 128 input features), the whole weight matrix and the matching
  10000 entries of the column `D`, multiplies rows by weights into a zero accumulator and stores the product;
  it stores a second time the product with every row scaled by that row's entry of `D`. Read at a row and a
  feature the product is the plain sum  Σ_k x[p,k] · w[k,q]  of 128 terms (the contraction axis is the operands'
  shared one). Grid point `t` works on rows 10000·t … 10000·t + 9999 of every row-blocked array, the weight
  matrix being the same block at every point; so what point `t` writes back is block `t` of ONE whole-array
  function of the arrays as the launch finds them, the five blocks cover the 50000 rows, and the output arrays end
  holding those functions.
-/
import proofs.«113243_j4071628996675_1_alg».proof.Proof.Gen.KernelIdeal.Frame
import proofs.«113243_j4071628996675_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Dense0

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## The body's arithmetic at an index -/

/-- The stored product at row `j 0`, feature `j 1` of the block: the sum over the 128 shared coordinates. -/
theorem pay1_apply (x0 : Vec Ideal S10000x128 .bf16) (x1 : Vec Ideal S128x128 .bf16) (j : S10000x128.Idx) :
    k0_pay1 (F := Ideal) x0 x1 j = ∑ k : Fin 128, x0 (ix2 (j 0) k) * x1 (ix2 k (j 1)) := by
  unfold k0_pay1
  rw [shapeCast_self, shapeCast_self]
  show FloatOps.matmul (F := Ideal) dot_S10000x128_S128x128_S10000x128_1_0_0_1_n_n none x0 x1 (constant S10000x128 .f32 0x00000000#32) j = _
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx j ((ValueIdx.contrEquiv1 dot_S10000x128_S128x128_S10000x128_1_0_0_1_n_n 128 rfl rfl).symm k) = ix2 (j 0) k := funext fun a => Fin.ext (by
    match a with
    | ⟨0, _⟩ =>
      show (dot_S10000x128_S128x128_S10000x128_1_0_0_1_n_n.lhsIdx j _ 0).val = (j 0).val
      unfold DotDims.lhsIdx
      rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
      rfl
    | ⟨1, _⟩ => exact (dot_S10000x128_S128x128_S10000x128_1_0_0_1_n_n.lhsIdx_val_of_single rfl j _).trans hk)
  have er : dot_S10000x128_S128x128_S10000x128_1_0_0_1_n_n.rhsIdx j ((ValueIdx.contrEquiv1 dot_S10000x128_S128x128_S10000x128_1_0_0_1_n_n 128 rfl rfl).symm k) = ix2 k (j 1) := funext fun a => Fin.ext (by
    match a with
    | ⟨0, _⟩ => exact (dot_S10000x128_S128x128_S10000x128_1_0_0_1_n_n.rhsIdx_val_of_single rfl j _).trans hk
    | ⟨1, _⟩ =>
      show (dot_S10000x128_S128x128_S10000x128_1_0_0_1_n_n.rhsIdx j _ 1).val = (j 1).val
      unfold DotDims.rhsIdx
      rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
      rfl)
  exact congrArg₂ (fun a b => x0 a * x1 b) el er

/-- The second store: the product at the index times the row's entry of the loaded column. -/
theorem pay2_apply (x0 : Vec Ideal S10000x128 .bf16) (x1 : Vec Ideal S128x128 .bf16) (x2 : Vec Ideal S10000x1 .f32) (j : S10000x128.Idx) :
    k0_pay2 (F := Ideal) x0 x1 x2 j = k0_pay1 (F := Ideal) x0 x1 j * x2 (ix2 (j 0) (0 : Fin 1)) := by
  unfold k0_pay2
  rw [shapeCast_self]
  show k0_pay1 (F := Ideal) x0 x1 j * broadcastTo S10000x128 x2 broadcasts_S10000x1_S10000x128 j = _
  rw [broadcastTo_apply x2 broadcasts_S10000x1_S10000x128 j (ix2 (j 0) (0 : Fin 1)) (fun a => by
    match a with
    | ⟨0, _⟩ => rfl
    | ⟨1, _⟩ => rfl)]

/-! ## The grid: which rows a point works on -/

theorem hz : (![0, 0] : Fin 2 → Nat) = fun _ => 0 := funext fun a => by fin_cases a <;> rfl

/-- The printed index maps, decided over the five points: the row-blocked windows move together along the rows,
    nothing moves along the features, and the weights stay put. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0
    ∧ win0_4.index t (0 : Fin 2) = win0_3.index t (0 : Fin 2) ∧ win0_4.index t (1 : Fin 2) = 0
    ∧ win0_3.index t (0 : Fin 2) ≤ 4 :=
  (by decide +kernel : ∀ t : Fin grid0.N, _)

/-- Every one of the five row blocks is some point's. -/
theorem idx_onto : ∀ q0 : Fin 5, ∃ t : Fin cfg0.N, win0_3.index t = ![q0.val, 0] :=
  (by decide +kernel : ∀ q0 : Fin 5, ∃ t : Fin grid0.N, win0_3.index t = ![q0.val, 0])

variable (V : (c : Dev nD) → (b : Ref sig .tc) → Buf (Elt Ideal) ((c : Thread nD τ).loc b))

/-- The three input blocks at a point are the arrays read at the point's rows. -/
theorem blk0_apply (c : Dev nD) (t : Fin cfg0.N) (j : S10000x128.Idx) (k : Fin 128) :
    iblk0 V c 0 t (ix2 (j 0) k) = V c main_v29 (ix2 ((((cfg0.win 3).blk t).view.emb j) 0) k) := by
  obtain ⟨e00, e01, e10, e11, e20, e21, e31, e40, e41, e3⟩ := idx_facts t
  show V c main_v29 (((cfg0.win 0).blk t).view.emb (ix2 (j 0) k)) = _
  refine congrArg (V c main_v29) (funext fun a => Fin.ext ?_)
  match a with
  | ⟨0, _⟩ => show win0_0.index t (0 : Fin 2) * 10000 + 1 * (j 0).val = win0_3.index t (0 : Fin 2) * 10000 + 1 * (j 0).val; omega
  | ⟨1, _⟩ => show win0_0.index t (1 : Fin 2) * 128 + 1 * k.val = k.val; omega

theorem blk1_apply (c : Dev nD) (t : Fin cfg0.N) (j : S10000x128.Idx) (k : Fin 128) :
    iblk0 V c 1 t (ix2 k (j 1)) = V c main_v30 (ix2 k ((((cfg0.win 3).blk t).view.emb j) 1)) := by
  obtain ⟨e00, e01, e10, e11, e20, e21, e31, e40, e41, e3⟩ := idx_facts t
  show V c main_v30 (((cfg0.win 1).blk t).view.emb (ix2 k (j 1))) = _
  refine congrArg (V c main_v30) (funext fun a => Fin.ext ?_)
  match a with
  | ⟨0, _⟩ => show win0_1.index t (0 : Fin 2) * 128 + 1 * k.val = k.val; omega
  | ⟨1, _⟩ => show win0_1.index t (1 : Fin 2) * 128 + 1 * (j 1).val = win0_3.index t (1 : Fin 2) * 128 + 1 * (j 1).val; omega

theorem blk2_apply (c : Dev nD) (t : Fin cfg0.N) (j : S10000x128.Idx) :
    iblk0 V c 2 t (ix2 (j 0) (0 : Fin 1)) = V c main_v13 (ix2 ((((cfg0.win 3).blk t).view.emb j) 0) (0 : Fin 1)) := by
  obtain ⟨e00, e01, e10, e11, e20, e21, e31, e40, e41, e3⟩ := idx_facts t
  show V c main_v13 (((cfg0.win 2).blk t).view.emb (ix2 (j 0) (0 : Fin 1))) = _
  refine congrArg (V c main_v13) (funext fun a => Fin.ext ?_)
  match a with
  | ⟨0, _⟩ => show win0_2.index t (0 : Fin 2) * 10000 + 1 * (j 0).val = win0_3.index t (0 : Fin 2) * 10000 + 1 * (j 0).val; omega
  | ⟨1, _⟩ => show win0_2.index t (1 : Fin 2) * 1 + 1 * 0 = 0; omega

/-! ## What a point writes back -/

/-- Point `t` writes back, into the first output, block `t` of the product of the arrays as found. -/
theorem flushed3_eq (c : Dev nD) (t : Fin cfg0.N) :
    (dat0 (F := Ideal) V c).flushed 3 t
      = ((cfg0.win 3).blk t).view.read (Elt Ideal) (Cert.Dense.prod128 (V c main_v29) (V c main_v30)) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x128) hz]
  funext j
  show k0_pay1 (F := Ideal) (iblk0 V c 0 t) (iblk0 V c 1 t) j
    = Cert.Dense.dot128 (V c main_v29) (V c main_v30) ((((cfg0.win 3).blk t).view.emb j) 0) ((((cfg0.win 3).blk t).view.emb j) 1)
  refine (pay1_apply (iblk0 V c 0 t) (iblk0 V c 1 t) j).trans ?_
  unfold Cert.Dense.dot128
  refine Finset.sum_congr rfl fun k _ => ?_
  rw [blk0_apply V c t j k, blk1_apply V c t j k]

/-- Point `t` writes back, into the second output, block `t` of the scaled product. -/
theorem flushed4_eq (c : Dev nD) (t : Fin cfg0.N) :
    (dat0 (F := Ideal) V c).flushed 4 t
      = ((cfg0.win 4).blk t).view.read (Elt Ideal) (Cert.Dense.self128 (V c main_v29) (V c main_v30) (V c main_v13)) := by
  show (cfg0.win 4).cut (grid0.coords t) ((dat0 V c).after 4 t) = _
  rw [after0_4]
  unfold out0_4
  rw [View.canon_unit_zero hz]
  simp only [View.ld_unit_zero (S := S10000x128) hz, View.ld_unit_zero (S := S128x128) hz, View.ld_unit_zero (S := S10000x1) hz]
  obtain ⟨e00, e01, e10, e11, e20, e21, e31, e40, e41, e3⟩ := idx_facts t
  funext j
  have hemb : ((cfg0.win 4).blk t).view.emb j = ((cfg0.win 3).blk t).view.emb j := by
    funext a; apply Fin.ext
    match a with
    | ⟨0, _⟩ => show win0_4.index t (0 : Fin 2) * 10000 + 1 * (j 0).val = win0_3.index t (0 : Fin 2) * 10000 + 1 * (j 0).val; omega
    | ⟨1, _⟩ => show win0_4.index t (1 : Fin 2) * 128 + 1 * (j 1).val = win0_3.index t (1 : Fin 2) * 128 + 1 * (j 1).val; omega
  show k0_pay2 (F := Ideal) (iblk0 V c 0 t) (iblk0 V c 1 t) (iblk0 V c 2 t) j
    = Cert.Dense.self128 (V c main_v29) (V c main_v30) (V c main_v13) (((cfg0.win 4).blk t).view.emb j)
  rw [hemb]
  refine (pay2_apply (iblk0 V c 0 t) (iblk0 V c 1 t) (iblk0 V c 2 t) j).trans ?_
  show _ = Cert.Dense.dot128 (V c main_v29) (V c main_v30) ((((cfg0.win 3).blk t).view.emb j) 0) ((((cfg0.win 3).blk t).view.emb j) 1)
      * V c main_v13 (ix2 ((((cfg0.win 3).blk t).view.emb j) 0) (0 : Fin 1))
  rw [blk2_apply V c t j]
  refine congrArg (· * _) ?_
  refine (pay1_apply (iblk0 V c 0 t) (iblk0 V c 1 t) j).trans ?_
  unfold Cert.Dense.dot128
  refine Finset.sum_congr rfl fun k _ => ?_
  rw [blk0_apply V c t j k, blk1_apply V c t j k]

/-! ## The five blocks cover the rows -/

theorem mem_blk3 (t : Fin cfg0.N) (i : S50000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v31_0).slice (win0_3.rect t)).set ↔ _
  rw [View.set_slice_whole, Rect.mem_set_unit]
  exact Iff.rfl

theorem mem_blk4 (t : Fin cfg0.N) (i : S50000x128.Idx) :
    i ∈ ((cfg0.win 4).blk t).view.set ↔ ∀ a : Fin 2, win0_4.index t a * S10000x128.size a ≤ (i a).val ∧ (i a).val < win0_4.index t a * S10000x128.size a + S10000x128.size a := by
  show i ∈ ((View.whole main_v31_1).slice (win0_4.rect t)).set ↔ _
  rw [View.set_slice_whole, Rect.mem_set_unit]
  exact Iff.rfl

/-- Row `r` is in the block of the point numbered `r / 10000`. -/
theorem cover3 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk3]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

theorem cover4 (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ := idx_onto ⟨(i 0).val / 10000, by omega⟩
  obtain ⟨e00, e01, e10, e11, e20, e21, e31, e40, e41, e3⟩ := idx_facts t
  have q0 : win0_3.index t (0 : Fin 2) = (i 0).val / 10000 := congrFun ht 0
  refine ⟨t, flush0_4 t, ?_⟩
  rw [mem_blk4]
  intro a
  match a with
  | ⟨0, _⟩ => show win0_4.index t (0 : Fin 2) * 10000 ≤ (i 0).val ∧ (i 0).val < win0_4.index t (0 : Fin 2) * 10000 + 10000; omega
  | ⟨1, _⟩ => show win0_4.index t (1 : Fin 2) * 128 ≤ (i 1).val ∧ (i 1).val < win0_4.index t (1 : Fin 2) * 128 + 128; omega

/-! ## The output arrays after the launch -/

/-- The first output array ends holding the product of the arrays the launch found. -/
theorem final3 (c : Dev nD) :
    (dat0 (F := Ideal) V c).arrAt 3 cfg0.N = Cert.Dense.prod128 (V c main_v29) (V c main_v30) :=
  (dat0 (F := Ideal) V c).arrAt_eq_of_cover 3 _ (fun t _ => flushed3_eq V c t) cover3

/-- The second output array ends holding the product scaled row by row. -/
theorem final4 (c : Dev nD) :
    (dat0 (F := Ideal) V c).arrAt 4 cfg0.N = Cert.Dense.self128 (V c main_v29) (V c main_v30) (V c main_v13) :=
  (dat0 (F := Ideal) V c).arrAt_eq_of_cover 4 _ (fun t _ => flushed4_eq V c t) cover4

end Cert.KernelIdeal.Dense0

end
-- ==== Proof.Region1.lean ====
/-
  What launch 1 of the dense transform leaves in its two output arrays.

  The body loads a block of 10000 node rows (all 128 input features), the whole weight matrix and the matching
  10000 entries of the column `D`, multiplies rows by weights into a zero accumulator and stores the product;
  it stores a second time the product with every row scaled by that row's entry of `D`. Read at a row and a
  feature the product is the plain sum  Σ_k x[p,k] · w[k,q]  of 128 terms (the contraction axis is the operands'
  shared one). Grid point `t` works on rows 10000·t … 10000·t + 9999 of every row-blocked array, the weight
  matrix being the same block at every point; so what point `t` writes back is block `t` of ONE whole-array
  function of the arrays as the launch finds them, the five blocks cover the 50000 rows, and the output arrays end
  holding those functions.
-/
import proofs.«113243_j4071628996675_1_alg».proof.Proof.Gen.KernelIdeal.Frame
import proofs.«113243_j4071628996675_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Dense1

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## The body's arithmetic at an index -/

/-- The stored product at row `j 0`, feature `j 1` of the block: the sum over the 128 shared coordinates. -/
theorem pay1_apply (x0 : Vec Ideal S10000x128 .bf16) (x1 : Vec Ideal S128x64 .bf16) (j : S10000x64.Idx) :
    k1_pay1 (F := Ideal) x0 x1 j = ∑ k : Fin 128, x0 (ix2 (j 0) k) * x1 (ix2 k (j 1)) := by
  unfold k1_pay1
  rw [shapeCast_self, shapeCast_self]
  show FloatOps.matmul (F := Ideal) dot_S10000x128_S128x64_S10000x64_1_0_0_1_n_n none x0 x1 (constant S10000x64 .f32 0x00000000#32) j = _
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx j ((ValueIdx.contrEquiv1 dot_S10000x128_S128x64_S10000x64_1_0_0_1_n_n 128 rfl rfl).symm k) = ix2 (j 0) k := funext fun a => Fin.ext (by
    match a with
    | ⟨0, _⟩ =>
      show (dot_S10000x128_S128x64_S10000x64_1_0_0_1_n_n.lhsIdx j _ 0).val = (j 0).val
      unfold DotDims.lhsIdx
      rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
      rfl
    | ⟨1, _⟩ => exact (dot_S10000x128_S128x64_S10000x64_1_0_0_1_n_n.lhsIdx_val_of_single rfl j _).trans hk)
  have er : dot_S10000x128_S128x64_S10000x64_1_0_0_1_n_n.rhsIdx j ((ValueIdx.contrEquiv1 dot_S10000x128_S128x64_S10000x64_1_0_0_1_n_n 128 rfl rfl).symm k) = ix2 k (j 1) := funext fun a => Fin.ext (by
    match a with
    | ⟨0, _⟩ => exact (dot_S10000x128_S128x64_S10000x64_1_0_0_1_n_n.rhsIdx_val_of_single rfl j _).trans hk
    | ⟨1, _⟩ =>
      show (dot_S10000x128_S128x64_S10000x64_1_0_0_1_n_n.rhsIdx j _ 1).val = (j 1).val
      unfold DotDims.rhsIdx
      rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
      rfl)
  exact congrArg₂ (fun a b => x0 a * x1 b) el er

/-- The second store: the product at the index times the row's entry of the loaded column. -/
theorem pay2_apply (x0 : Vec Ideal S10000x128 .bf16) (x1 : Vec Ideal S128x64 .bf16) (x2 : Vec Ideal S10000x1 .f32) (j : S10000x64.Idx) :
    k1_pay2 (F := Ideal) x0 x1 x2 j = k1_pay1 (F := Ideal) x0 x1 j * x2 (ix2 (j 0) (0 : Fin 1)) := by
  unfold k1_pay2
  rw [shapeCast_self]
  show k1_pay1 (F := Ideal) x0 x1 j * broadcastTo S10000x64 x2 broadcasts_S10000x1_S10000x64 j = _
  rw [broadcastTo_apply x2 broadcasts_S10000x1_S10000x64 j (ix2 (j 0) (0 : Fin 1)) (fun a => by
    match a with
    | ⟨0, _⟩ => rfl
    | ⟨1, _⟩ => rfl)]

/-! ## The grid: which rows a point works on -/

theorem hz : (![0, 0] : Fin 2 → Nat) = fun _ => 0 := funext fun a => by fin_cases a <;> rfl

/-- The printed index maps, decided over the five points: the row-blocked windows move together along the rows,
    nothing moves along the features, and the weights stay put. -/
theorem idx_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = win1_3.index t (0 : Fin 2) ∧ win1_2.index t (1 : Fin 2) = 0
    ∧ win1_3.index t (1 : Fin 2) = 0
    ∧ win1_4.index t (0 : Fin 2) = win1_3.index t (0 : Fin 2) ∧ win1_4.index t (1 : Fin 2) = 0
    ∧ win1_3.index t (0 : Fin 2) ≤ 4 :=
  (by decide +kernel : ∀ t : Fin grid1.N, _)

/-- Every one of the five row blocks is some point's. -/
theorem idx_onto : ∀ q0 : Fin 5, ∃ t : Fin cfg1.N, win1_3.index t = ![q0.val, 0] :=
  (by decide +kernel : ∀ q0 : Fin 5, ∃ t : Fin grid1.N, win1_3.index t = ![q0.val, 0])

variable (V : (c : Dev nD) → (b : Ref sig .tc) → Buf (Elt Ideal) ((c : Thread nD τ).loc b))

/-- The three input blocks at a point are the arrays read at the point's rows. -/
theorem blk0_apply (c : Dev nD) (t : Fin cfg1.N) (j : S10000x64.Idx) (k : Fin 128) :
    iblk1 V c 0 t (ix2 (j 0) k) = V c main_v50 (ix2 ((((cfg1.win 3).blk t).view.emb j) 0) k) := by
  obtain ⟨e00, e01, e10, e11, e20, e21, e31, e40, e41, e3⟩ := idx_facts t
  show V c main_v50 (((cfg1.win 0).blk t).view.emb (ix2 (j 0) k)) = _
  refine congrArg (V c main_v50) (funext fun a => Fin.ext ?_)
  match a with
  | ⟨0, _⟩ => show win1_0.index t (0 : Fin 2) * 10000 + 1 * (j 0).val = win1_3.index t (0 : Fin 2) * 10000 + 1 * (j 0).val; omega
  | ⟨1, _⟩ => show win1_0.index t (1 : Fin 2) * 128 + 1 * k.val = k.val; omega

theorem blk1_apply (c : Dev nD) (t : Fin cfg1.N) (j : S10000x64.Idx) (k : Fin 128) :
    iblk1 V c 1 t (ix2 k (j 1)) = V c main_v51 (ix2 k ((((cfg1.win 3).blk t).view.emb j) 1)) := by
  obtain ⟨e00, e01, e10, e11, e20, e21, e31, e40, e41, e3⟩ := idx_facts t
  show V c main_v51 (((cfg1.win 1).blk t).view.emb (ix2 k (j 1))) = _
  refine congrArg (V c main_v51) (funext fun a => Fin.ext ?_)
  match a with
  | ⟨0, _⟩ => show win1_1.index t (0 : Fin 2) * 128 + 1 * k.val = k.val; omega
  | ⟨1, _⟩ => show win1_1.index t (1 : Fin 2) * 64 + 1 * (j 1).val = win1_3.index t (1 : Fin 2) * 64 + 1 * (j 1).val; omega

theorem blk2_apply (c : Dev nD) (t : Fin cfg1.N) (j : S10000x64.Idx) :
    iblk1 V c 2 t (ix2 (j 0) (0 : Fin 1)) = V c main_v13 (ix2 ((((cfg1.win 3).blk t).view.emb j) 0) (0 : Fin 1)) := by
  obtain ⟨e00, e01, e10, e11, e20, e21, e31, e40, e41, e3⟩ := idx_facts t
  show V c main_v13 (((cfg1.win 2).blk t).view.emb (ix2 (j 0) (0 : Fin 1))) = _
  refine congrArg (V c main_v13) (funext fun a => Fin.ext ?_)
  match a with
  | ⟨0, _⟩ => show win1_2.index t (0 : Fin 2) * 10000 + 1 * (j 0).val = win1_3.index t (0 : Fin 2) * 10000 + 1 * (j 0).val; omega
  | ⟨1, _⟩ => show win1_2.index t (1 : Fin 2) * 1 + 1 * 0 = 0; omega

/-! ## What a point writes back -/

/-- Point `t` writes back, into the first output, block `t` of the product of the arrays as found. -/
theorem flushed3_eq (c : Dev nD) (t : Fin cfg1.N) :
    (dat1 (F := Ideal) V c).flushed 3 t
      = ((cfg1.win 3).blk t).view.read (Elt Ideal) (Cert.Dense.prod64 (V c main_v50) (V c main_v51)) := by
  show (cfg1.win 3).cut (grid1.coords t) ((dat1 V c).after 3 t) = _
  rw [after1_3]
  unfold out1_3
  rw [View.canon_unit_zero hz]
  simp only [View.ld_unit_zero (S := S10000x128) hz, View.ld_unit_zero (S := S128x64) hz]
  funext j
  show k1_pay1 (F := Ideal) (iblk1 V c 0 t) (iblk1 V c 1 t) j
    = Cert.Dense.dot64 (V c main_v50) (V c main_v51) ((((cfg1.win 3).blk t).view.emb j) 0) ((((cfg1.win 3).blk t).view.emb j) 1)
  refine (pay1_apply (iblk1 V c 0 t) (iblk1 V c 1 t) j).trans ?_
  unfold Cert.Dense.dot64
  refine Finset.sum_congr rfl fun k _ => ?_
  rw [blk0_apply V c t j k, blk1_apply V c t j k]

/-- Point `t` writes back, into the second output, block `t` of the scaled product. -/
theorem flushed4_eq (c : Dev nD) (t : Fin cfg1.N) :
    (dat1 (F := Ideal) V c).flushed 4 t
      = ((cfg1.win 4).blk t).view.read (Elt Ideal) (Cert.Dense.self64 (V c main_v50) (V c main_v51) (V c main_v13)) := by
  show (cfg1.win 4).cut (grid1.coords t) ((dat1 V c).after 4 t) = _
  rw [after1_4]
  unfold out1_4
  rw [View.canon_unit_zero hz]
  simp only [View.ld_unit_zero (S := S10000x128) hz, View.ld_unit_zero (S := S128x64) hz, View.ld_unit_zero (S := S10000x1) hz]
  obtain ⟨e00, e01, e10, e11, e20, e21, e31, e40, e41, e3⟩ := idx_facts t
  funext j
  have hemb : ((cfg1.win 4).blk t).view.emb j = ((cfg1.win 3).blk t).view.emb j := by
    funext a; apply Fin.ext
    match a with
    | ⟨0, _⟩ => show win1_4.index t (0 : Fin 2) * 10000 + 1 * (j 0).val = win1_3.index t (0 : Fin 2) * 10000 + 1 * (j 0).val; omega
    | ⟨1, _⟩ => show win1_4.index t (1 : Fin 2) * 64 + 1 * (j 1).val = win1_3.index t (1 : Fin 2) * 64 + 1 * (j 1).val; omega
  show k1_pay2 (F := Ideal) (iblk1 V c 0 t) (iblk1 V c 1 t) (iblk1 V c 2 t) j
    = Cert.Dense.self64 (V c main_v50) (V c main_v51) (V c main_v13) (((cfg1.win 4).blk t).view.emb j)
  rw [hemb]
  refine (pay2_apply (iblk1 V c 0 t) (iblk1 V c 1 t) (iblk1 V c 2 t) j).trans ?_
  show _ = Cert.Dense.dot64 (V c main_v50) (V c main_v51) ((((cfg1.win 3).blk t).view.emb j) 0) ((((cfg1.win 3).blk t).view.emb j) 1)
      * V c main_v13 (ix2 ((((cfg1.win 3).blk t).view.emb j) 0) (0 : Fin 1))
  rw [blk2_apply V c t j]
  refine congrArg (· * _) ?_
  refine (pay1_apply (iblk1 V c 0 t) (iblk1 V c 1 t) j).trans ?_
  unfold Cert.Dense.dot64
  refine Finset.sum_congr rfl fun k _ => ?_
  rw [blk0_apply V c t j k, blk1_apply V c t j k]

/-! ## The five blocks cover the rows -/

theorem mem_blk3 (t : Fin cfg1.N) (i : S50000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v52_0).slice (win1_3.rect t)).set ↔ _
  rw [View.set_slice_whole, Rect.mem_set_unit]
  exact Iff.rfl

theorem mem_blk4 (t : Fin cfg1.N) (i : S50000x64.Idx) :
    i ∈ ((cfg1.win 4).blk t).view.set ↔ ∀ a : Fin 2, win1_4.index t a * S10000x64.size a ≤ (i a).val ∧ (i a).val < win1_4.index t a * S10000x64.size a + S10000x64.size a := by
  show i ∈ ((View.whole main_v52_1).slice (win1_4.rect t)).set ↔ _
  rw [View.set_slice_whole, Rect.mem_set_unit]
  exact Iff.rfl

/-- Row `r` is in the block of the point numbered `r / 10000`. -/
theorem cover3 (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := idx_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk3]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

theorem cover4 (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ := idx_onto ⟨(i 0).val / 10000, by omega⟩
  obtain ⟨e00, e01, e10, e11, e20, e21, e31, e40, e41, e3⟩ := idx_facts t
  have q0 : win1_3.index t (0 : Fin 2) = (i 0).val / 10000 := congrFun ht 0
  refine ⟨t, flush1_4 t, ?_⟩
  rw [mem_blk4]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 64 ≤ (i 1).val ∧ (i 1).val < win1_4.index t (1 : Fin 2) * 64 + 64; omega

/-! ## The output arrays after the launch -/

/-- The first output array ends holding the product of the arrays the launch found. -/
theorem final3 (c : Dev nD) :
    (dat1 (F := Ideal) V c).arrAt 3 cfg1.N = Cert.Dense.prod64 (V c main_v50) (V c main_v51) :=
  (dat1 (F := Ideal) V c).arrAt_eq_of_cover 3 _ (fun t _ => flushed3_eq V c t) cover3

/-- The second output array ends holding the product scaled row by row. -/
theorem final4 (c : Dev nD) :
    (dat1 (F := Ideal) V c).arrAt 4 cfg1.N = Cert.Dense.self64 (V c main_v50) (V c main_v51) (V c main_v13) :=
  (dat1 (F := Ideal) V c).arrAt_eq_of_cover 4 _ (fun t _ => flushed4_eq V c t) cover4

end Cert.KernelIdeal.Dense1

end
-- ==== Proof.Conv.lean ====
/-
  The graph convolution both programs compute, in the reference's spelling.

  A layer takes node features `h` (one row per node), an edge list (row 0 the source of each edge, row 1 its
  target) and produces, for node `v`,
      Σ_{edges e into v} lin(h)[src e] · n_e  +  lin(h)[v] · d_v²  +  b,
  where `lin` is the dense transform by the layer's weights, `d_v = (1 + in-degree of v)^(-1/2)` and
  `n_e = d_(src e) · d_(dst e)`. Node numbers index the way array indexing does (a negative one counts from the
  end); the sum over incoming edges is a scatter-add at the raw targets. Everything here is a term of host
  operations over whole arrays: no entry is ever read. The two programs differ only in HOW `lin(h)` and the
  self-loop term `lin(h)[v] · d_v²` come to be; so the aggregation is stated over those two arrays as parameters.
-/
import proofs.«113243_j4071628996675_1_alg».proof.ReferenceIdeal
import proofs.«113243_j4071628996675_1_alg».proof.Proof.Gen.ReferenceIdeal

noncomputable section

namespace Cert.Gcn

open Cert.ReferenceIdeal Cert.ReferenceIdeal.Gen Idealize.ShloMosaic Idealize.ShloMosaic.TcCoe Idealize.SL.Sem Idealize.ShloMosaic.StableHlo

variable {F : FTy → Type} [FloatOps F]

/-- The sources of the edges: row 0 of the edge list. -/
def srcRow (E : (⟨S2x800000, .i32⟩ : BufTy).Contents (Elt F)) : (⟨S800000, .i32⟩ : BufTy).Contents (Elt F) :=
  shapeCast _ (extractStridedSlice S1x800000 ![0, 0] E slices_S2x800000_S1x800000_0_0) shapeCasts_S1x800000_S800000

/-- The targets of the edges: row 1 of the edge list. -/
def dstRow (E : (⟨S2x800000, .i32⟩ : BufTy).Contents (Elt F)) : (⟨S800000, .i32⟩ : BufTy).Contents (Elt F) :=
  shapeCast _ (extractStridedSlice S1x800000 ![1, 0] E slices_S2x800000_S1x800000_1_0) shapeCasts_S1x800000_S800000

/-- A node number as array indexing reads it: a negative one has the number of nodes added. -/
def wrap (v : (⟨S800000, .i32⟩ : BufTy).Contents (Elt F)) : (⟨S800000, .i32⟩ : BufTy).Contents (Elt F) :=
  select (cmpi .slt v (broadcastInDim S800000 ![] bcast_S_S800000 (constantI S_ 32 0#32))) (addi v (broadcastInDim S800000 ![] bcast_S_S800000 (constantI S_ 32 50000#32))) v

/-- Node numbers as a column of one-entry index vectors. -/
def col (v : (⟨S800000, .i32⟩ : BufTy).Contents (Elt F)) : (⟨S800000x1, .i32⟩ : BufTy).Contents (Elt F) :=
  broadcastInDim S800000x1 ![0] bcast_S800000_S800000x1_0 v

/-- `d = (1 + in-degree)^(-1/2)`, the in-degree counted by scattering a one per edge at its target. -/
def dinv (dst : (⟨S800000, .i32⟩ : BufTy).Contents (Elt F)) : (⟨S50000, .f32⟩ : BufTy).Contents (Elt F) :=
  Host.powf (addf (Host.scatterAdd scatter_S50000_S800000x1_S800000_n_0_0_1 (broadcastInDim S50000 ![] bcast_S_S50000 (constant S_ .f32 0x00000000#32)) (col dst) (broadcastInDim S800000 ![] bcast_S_S800000 (constant S_ .f32 0x3F800000#32))) (broadcastInDim S50000 ![] bcast_S_S50000 (constant S_ .f32 0x3F800000#32))) (broadcastInDim S50000 ![] bcast_S_S50000 (constant S_ .f32 0xBF000000#32))

/-- The weight of each edge: `d` at its source times `d` at its target. -/
def norm (src dst : (⟨S800000, .i32⟩ : BufTy).Contents (Elt F)) : (⟨S800000, .f32⟩ : BufTy).Contents (Elt F) :=
  mulf (Host.gather gather_S50000_S800000x1_S800000_n_0_n_n_0_1_1 (dinv dst) (col (wrap src))) (Host.gather gather_S50000_S800000x1_S800000_n_0_n_n_0_1_1 (dinv dst) (col (wrap dst)))

/-- One layer of width 128 from its transformed features `Y` and its self-loop term `S`: the weighted rows of
    `Y` at the sources summed into the targets, plus `S`, plus the bias on every row. -/
def agg128 (src dst : (⟨S800000, .i32⟩ : BufTy).Contents (Elt F)) (nrm : (⟨S800000, .f32⟩ : BufTy).Contents (Elt F)) (Y S : (⟨S50000x128, .f32⟩ : BufTy).Contents (Elt F)) (b : (⟨S128, .f32⟩ : BufTy).Contents (Elt F)) : (⟨S50000x128, .f32⟩ : BufTy).Contents (Elt F) :=
  addf (addf (Host.scatterAdd scatter_S50000x128_S800000x1_S800000x128_1_0_0_1 (broadcastInDim S50000x128 ![] bcast_S_S50000x128 (constant S_ .f32 0x00000000#32)) (col dst) (mulf (Host.gather gather_S50000x128_S800000x1_S800000x128_1_0_n_n_0_1_1128 Y (col (wrap src))) (broadcastInDim S800000x128 ![0, 1] bcast_S800000x1_S800000x128_0_1 (broadcastInDim S800000x1 ![0] bcast_S800000_S800000x1_0 nrm)))) S) (broadcastInDim S50000x128 ![0, 1] bcast_S1x128_S50000x128_0_1 (broadcastInDim S1x128 ![1] bcast_S128_S1x128_1 b))

/-- The same layer at width 64. -/
def agg64 (src dst : (⟨S800000, .i32⟩ : BufTy).Contents (Elt F)) (nrm : (⟨S800000, .f32⟩ : BufTy).Contents (Elt F)) (Y S : (⟨S50000x64, .f32⟩ : BufTy).Contents (Elt F)) (b : (⟨S64, .f32⟩ : BufTy).Contents (Elt F)) : (⟨S50000x64, .f32⟩ : BufTy).Contents (Elt F) :=
  addf (addf (Host.scatterAdd scatter_S50000x64_S800000x1_S800000x64_1_0_0_1 (broadcastInDim S50000x64 ![] bcast_S_S50000x64 (constant S_ .f32 0x00000000#32)) (col dst) (mulf (Host.gather gather_S50000x64_S800000x1_S800000x64_1_0_n_n_0_1_164 Y (col (wrap src))) (broadcastInDim S800000x64 ![0, 1] bcast_S800000x1_S800000x64_0_1 (broadcastInDim S800000x1 ![0] bcast_S800000_S800000x1_0 nrm)))) S) (broadcastInDim S50000x64 ![0, 1] bcast_S1x64_S50000x64_0_1 (broadcastInDim S1x64 ![1] bcast_S64_S1x64_1 b))

/-- `d²` of every node, as the column the self-loop term multiplies by, spread over 128 features. -/
def dsq128 (d : (⟨S50000, .f32⟩ : BufTy).Contents (Elt F)) : (⟨S50000x128, .f32⟩ : BufTy).Contents (Elt F) :=
  broadcastInDim S50000x128 ![0, 1] bcast_S50000x1_S50000x128_0_1 (broadcastInDim S50000x1 ![0] bcast_S50000_S50000x1_0 (mulf d d))

/-- The same over 64 features. -/
def dsq64 (d : (⟨S50000, .f32⟩ : BufTy).Contents (Elt F)) : (⟨S50000x64, .f32⟩ : BufTy).Contents (Elt F) :=
  broadcastInDim S50000x64 ![0, 1] bcast_S50000x1_S50000x64_0_1 (broadcastInDim S50000x1 ![0] bcast_S50000_S50000x1_0 (mulf d d))

/-- The dense transform of layer one: features times weights, 128 → 128. -/
def lin128 (x : (⟨S50000x128, .f32⟩ : BufTy).Contents (Elt F)) (W : (⟨S128x128, .f32⟩ : BufTy).Contents (Elt F)) : (⟨S50000x128, .f32⟩ : BufTy).Contents (Elt F) :=
  Host.dotGeneral dot_S50000x128_S128x128_S50000x128_1_0_0_1_n_n none x W

/-- The dense transform of layer two: 128 → 64. -/
def lin64 (h : (⟨S50000x128, .f32⟩ : BufTy).Contents (Elt F)) (W : (⟨S128x64, .f32⟩ : BufTy).Contents (Elt F)) : (⟨S50000x64, .f32⟩ : BufTy).Contents (Elt F) :=
  Host.dotGeneral dot_S50000x128_S128x64_S50000x64_1_0_0_1_n_n none h W

/-- The rectifier: the larger of an entry and zero. -/
def relu128 (z : (⟨S50000x128, .f32⟩ : BufTy).Contents (Elt F)) : (⟨S50000x128, .f32⟩ : BufTy).Contents (Elt F) :=
  maximumf z (broadcastInDim S50000x128 ![] bcast_S_S50000x128 (constant S_ .f32 0x00000000#32))

/-- The hidden features: layer one, rectified. -/
def hidden (E : (⟨S2x800000, .i32⟩ : BufTy).Contents (Elt F)) (x : (⟨S50000x128, .f32⟩ : BufTy).Contents (Elt F)) (W1 : (⟨S128x128, .f32⟩ : BufTy).Contents (Elt F)) (b1 : (⟨S128, .f32⟩ : BufTy).Contents (Elt F)) : (⟨S50000x128, .f32⟩ : BufTy).Contents (Elt F) :=
  relu128 (agg128 (srcRow E) (dstRow E) (norm (srcRow E) (dstRow E)) (lin128 x W1) (mulf (lin128 x W1) (dsq128 (dinv (dstRow E)))) b1)

/-- The mean (and, the second layer being applied twice with the same weights, also the log-deviation). -/
def mu (E : (⟨S2x800000, .i32⟩ : BufTy).Contents (Elt F)) (x : (⟨S50000x128, .f32⟩ : BufTy).Contents (Elt F)) (W1 : (⟨S128x128, .f32⟩ : BufTy).Contents (Elt F)) (b1 : (⟨S128, .f32⟩ : BufTy).Contents (Elt F)) (Wmu : (⟨S128x64, .f32⟩ : BufTy).Contents (Elt F)) (bmu : (⟨S64, .f32⟩ : BufTy).Contents (Elt F)) : (⟨S50000x64, .f32⟩ : BufTy).Contents (Elt F) :=
  agg64 (srcRow E) (dstRow E) (norm (srcRow E) (dstRow E)) (lin64 (hidden E x W1 b1) Wmu) (mulf (lin64 (hidden E x W1 b1) Wmu) (dsq64 (dinv (dstRow E)))) bmu

/-- The sample: mean plus noise times the exponential of the log-deviation. -/
def sample (M eps : (⟨S50000x64, .f32⟩ : BufTy).Contents (Elt F)) : (⟨S50000x64, .f32⟩ : BufTy).Contents (Elt F) :=
  addf M (mulf eps (Host.exp M))

end Cert.Gcn

end
-- ==== Proof.KStretchPre.lean ====
/-
  The idealized kernel's host operations before its first launch, read as terms of the contents they start from.

  The host cuts the edge list into sources and targets, counts in-degrees by a scatter-add of ones, takes the
  inverse root, weighs each edge by the inverse roots at its two ends, squares the inverse roots into a column, and
  changes the float format of the features and the weights — the identity on the extended reals. Each lemma runs the
  stretch from an ARBITRARY valuation `Fv` of the buffers and states one buffer's contents afterwards.
-/
import proofs.«113243_j4071628996675_1_alg».proof.Proof.Gen.KernelIdeal.Launch
import proofs.«113243_j4071628996675_1_alg».proof.Proof.Conv
import Idealize.ShloMosaic.Lib.StableHlo.Run
import Idealize.ShloMosaic.PureOps.Ideal

set_option maxRecDepth 16384

noncomputable section

namespace Cert.KernelIdeal.Stretch

open Cert.KernelIdeal Cert.KernelIdeal.Gen Idealize.ShloMosaic Idealize.ShloMosaic.TcCoe Idealize.SL.Sem Idealize.ShloMosaic.StableHlo

variable (Fv : Valuation τ sig (Elt Ideal))

/-! ## Before the first launch -/

theorem pre_src : StableHlo.after (hostOps0 (F := Ideal)) Fv (Proc.devRef .tc main_v1) = Cert.Gcn.srcRow (Fv (Proc.devRef .tc main_arg1)) := by
  after_results; rfl

theorem pre_dst : StableHlo.after (hostOps0 (F := Ideal)) Fv (Proc.devRef .tc main_v3) = Cert.Gcn.dstRow (Fv (Proc.devRef .tc main_arg1)) := by
  after_results; rfl

theorem pre_norm : StableHlo.after (hostOps0 (F := Ideal)) Fv (Proc.devRef .tc main_v28)
    = Cert.Gcn.norm (Cert.Gcn.srcRow (Fv (Proc.devRef .tc main_arg1))) (Cert.Gcn.dstRow (Fv (Proc.devRef .tc main_arg1))) := by
  after_results_simp
  rfl

theorem pre_dcol : StableHlo.after (hostOps0 (F := Ideal)) Fv (Proc.devRef .tc main_v13)
    = shapeCast S50000x1 (mulf (F := Ideal) (φ := .f32) (Cert.Gcn.dinv (Cert.Gcn.dstRow (Fv (Proc.devRef .tc main_arg1)))) (Cert.Gcn.dinv (Cert.Gcn.dstRow (Fv (Proc.devRef .tc main_arg1))))) shapeCasts_S50000_S50000x1 := by
  after_results; rfl

theorem pre_x : StableHlo.after (hostOps0 (F := Ideal)) Fv (Proc.devRef .tc main_v29) = (Fv (Proc.devRef .tc main_arg0)) := by
  after_results; rfl

theorem pre_w : StableHlo.after (hostOps0 (F := Ideal)) Fv (Proc.devRef .tc main_v30) = (Fv (Proc.devRef .tc main_arg2)) := by
  after_results; rfl

/-- An argument the first stretch only reads keeps its contents. -/
theorem pre_keep (b : Ref sig .tc) (hb : b = main_arg3 ∨ b = main_arg4 ∨ b = main_arg5 ∨ b = main_arg8) :
    StableHlo.after (hostOps0 (F := Ideal)) Fv (Proc.devRef .tc b) = Fv (Proc.devRef .tc b) := by
  rcases hb with rfl | rfl | rfl | rfl <;> after_results

end Cert.KernelIdeal.Stretch

end
-- ==== Proof.KStretchMid.lean ====
/-
  The idealized kernel's host operations between its two launches: the weighted rows of the first launch's product
  gathered at the sources and summed into the targets, plus the launch's self-loop term, plus the bias, rectified;
  then the change of float format (the identity on the extended reals) of the hidden features and of the second
  layer's weights. Run from an arbitrary valuation of the buffers.
-/
import proofs.«113243_j4071628996675_1_alg».proof.Proof.Gen.KernelIdeal.Launch
import proofs.«113243_j4071628996675_1_alg».proof.Proof.Conv
import Idealize.ShloMosaic.Lib.StableHlo.Run
import Idealize.ShloMosaic.PureOps.Ideal

set_option maxRecDepth 16384

noncomputable section

namespace Cert.KernelIdeal.Stretch

open Cert.KernelIdeal Cert.KernelIdeal.Gen Idealize.ShloMosaic Idealize.ShloMosaic.TcCoe Idealize.SL.Sem Idealize.ShloMosaic.StableHlo

variable (Fv : Valuation τ sig (Elt Ideal))

/-- A buffer none of a stretch's operations writes keeps its contents through the stretch. -/
macro "keeps " ops:ident : tactic => `(tactic| exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

/-! ## The aggregation of layer one -/

theorem agg1 : StableHlo.after (hostOps1 (F := Ideal)) Fv (Proc.devRef .tc main_v48)
    = Cert.Gcn.agg128 (Fv (Proc.devRef .tc main_v1)) (Fv (Proc.devRef .tc main_v3)) (Fv (Proc.devRef .tc main_v28)) (Fv (Proc.devRef .tc main_v31_0)) (Fv (Proc.devRef .tc main_v31_1)) (Fv (Proc.devRef .tc main_arg3)) := by
  after_results_simp
  rfl

theorem agg1_keep (b : Ref sig .tc) (hb : b = main_v1 ∨ b = main_v3 ∨ b = main_v28 ∨ b = main_v13 ∨ b = main_arg4 ∨ b = main_arg5 ∨ b = main_arg8) :
    StableHlo.after (hostOps1 (F := Ideal)) Fv (Proc.devRef .tc b) = Fv (Proc.devRef .tc b) := by
  rcases hb with rfl | rfl | rfl | rfl | rfl | rfl | rfl <;> keeps hostOps1

/-! ## The rectifier -/

theorem relu2 : StableHlo.after (hostOps1_1 (F := Ideal)) Fv (Proc.devRef .tc main_v49) = Cert.Gcn.relu128 (Fv (Proc.devRef .tc main_v48)) := by
  after_results_simp
  rfl

theorem relu2_keep (b : Ref sig .tc) (hb : b = main_v1 ∨ b = main_v3 ∨ b = main_v28 ∨ b = main_v13 ∨ b = main_arg4 ∨ b = main_arg5 ∨ b = main_arg8) :
    StableHlo.after (hostOps1_1 (F := Ideal)) Fv (Proc.devRef .tc b) = Fv (Proc.devRef .tc b) := by
  rcases hb with rfl | rfl | rfl | rfl | rfl | rfl | rfl <;> keeps hostOps1_1

/-! ## The casts before the second launch -/

theorem cast3_h : StableHlo.after (hostOps1_2 (F := Ideal)) Fv (Proc.devRef .tc main_v50) = (Fv (Proc.devRef .tc main_v49)) := by
  after_results; rfl

theorem cast3_w : StableHlo.after (hostOps1_2 (F := Ideal)) Fv (Proc.devRef .tc main_v51) = (Fv (Proc.devRef .tc main_arg4)) := by
  after_results; rfl

theorem cast3_keep (b : Ref sig .tc) (hb : b = main_v1 ∨ b = main_v3 ∨ b = main_v28 ∨ b = main_v13 ∨ b = main_arg5 ∨ b = main_arg8) :
    StableHlo.after (hostOps1_2 (F := Ideal)) Fv (Proc.devRef .tc b) = Fv (Proc.devRef .tc b) := by
  rcases hb with rfl | rfl | rfl | rfl | rfl | rfl <;> keeps hostOps1_2

/-! ## The three stages together -/

theorem mid_h : StableHlo.after (hostOps1_2 (F := Ideal)) (StableHlo.after (hostOps1_1 (F := Ideal)) (StableHlo.after (hostOps1 (F := Ideal)) Fv)) (Proc.devRef .tc main_v50)
    = Cert.Gcn.relu128 (Cert.Gcn.agg128 (Fv (Proc.devRef .tc main_v1)) (Fv (Proc.devRef .tc main_v3)) (Fv (Proc.devRef .tc main_v28)) (Fv (Proc.devRef .tc main_v31_0)) (Fv (Proc.devRef .tc main_v31_1)) (Fv (Proc.devRef .tc main_arg3))) :=
  (cast3_h _).trans ((relu2 _).trans (congrArg Cert.Gcn.relu128 (agg1 Fv)))

theorem mid_w : StableHlo.after (hostOps1_2 (F := Ideal)) (StableHlo.after (hostOps1_1 (F := Ideal)) (StableHlo.after (hostOps1 (F := Ideal)) Fv)) (Proc.devRef .tc main_v51)
    = (Fv (Proc.devRef .tc main_arg4)) :=
  (cast3_w _).trans ((relu2_keep _ main_arg4 (.inr (.inr (.inr (.inr (.inl rfl)))))).trans (agg1_keep Fv main_arg4 (.inr (.inr (.inr (.inr (.inl rfl)))))))

/-- A buffer the middle stretches do not write keeps its contents. -/
theorem mid_keep (b : Ref sig .tc) (hb : b = main_v1 ∨ b = main_v3 ∨ b = main_v28 ∨ b = main_v13 ∨ b = main_arg5 ∨ b = main_arg8) :
    StableHlo.after (hostOps1_2 (F := Ideal)) (StableHlo.after (hostOps1_1 (F := Ideal)) (StableHlo.after (hostOps1 (F := Ideal)) Fv)) (Proc.devRef .tc b)
    = Fv (Proc.devRef .tc b) := by
  have h7 : b = main_v1 ∨ b = main_v3 ∨ b = main_v28 ∨ b = main_v13 ∨ b = main_arg4 ∨ b = main_arg5 ∨ b = main_arg8 := by
    rcases hb with h | h | h | h | h | h
    · exact .inl h
    · exact .inr (.inl h)
    · exact .inr (.inr (.inl h))
    · exact .inr (.inr (.inr (.inl h)))
    · exact .inr (.inr (.inr (.inr (.inr (.inl h)))))
    · exact .inr (.inr (.inr (.inr (.inr (.inr h)))))
  exact (cast3_keep _ b hb).trans ((relu2_keep _ b h7).trans (agg1_keep Fv b h7))

end Cert.KernelIdeal.Stretch

end
-- ==== Proof.KStretchTail.lean ====
/-
  The idealized kernel's host operations after its second launch: the aggregation of layer two (the mean), its
  exponential, and the sample. Run from an arbitrary valuation of the buffers.
-/
import proofs.«113243_j4071628996675_1_alg».proof.Proof.Gen.KernelIdeal.Launch
import proofs.«113243_j4071628996675_1_alg».proof.Proof.Conv
import Idealize.ShloMosaic.Lib.StableHlo.Run
import Idealize.ShloMosaic.PureOps.Ideal

set_option maxRecDepth 16384

noncomputable section

namespace Cert.KernelIdeal.Stretch

open Cert.KernelIdeal Cert.KernelIdeal.Gen Idealize.ShloMosaic Idealize.ShloMosaic.TcCoe Idealize.SL.Sem Idealize.ShloMosaic.StableHlo

variable (Fv : Valuation τ sig (Elt Ideal))

/-! ## After the second launch -/

theorem tail_mu : StableHlo.after (hostOps2 (F := Ideal)) Fv (Proc.devRef .tc main_v69)
    = Cert.Gcn.agg64 (Fv (Proc.devRef .tc main_v1)) (Fv (Proc.devRef .tc main_v3)) (Fv (Proc.devRef .tc main_v28)) (Fv (Proc.devRef .tc main_v52_0)) (Fv (Proc.devRef .tc main_v52_1)) (Fv (Proc.devRef .tc main_arg5)) := by
  after_results_simp
  rfl

theorem tail_sample : StableHlo.after (hostOps2 (F := Ideal)) Fv (Proc.devRef .tc main_v72)
    = Cert.Gcn.sample (Cert.Gcn.agg64 (Fv (Proc.devRef .tc main_v1)) (Fv (Proc.devRef .tc main_v3)) (Fv (Proc.devRef .tc main_v28)) (Fv (Proc.devRef .tc main_v52_0)) (Fv (Proc.devRef .tc main_v52_1)) (Fv (Proc.devRef .tc main_arg5))) (Fv (Proc.devRef .tc main_arg8)) := by
  after_results_simp
  rfl

end Cert.KernelIdeal.Stretch

end
-- ==== Proof.RefLin.lean ====
/-
  The reference's two dense transforms and its self-loop factor, read at an index.

  On the extended reals the host's `dot_general` of a [50000,128] array with a [128,n] array is, at row `p` and
  feature `q`, the sum  Σ_k x[p,k] · w[k,q]  with no accumulator — the same 128-term sum a launch's block product
  is. The factor of the self-loop term is `d²` of the row: the reference spreads the vector `d·d` over a
  column and then over the features, the launch is handed the same vector reshaped to one column and multiplies
  each row by its entry; at every index both read `(d·d)[p]`.
-/
import proofs.«113243_j4071628996675_1_alg».proof.Proof.Conv
import proofs.«113243_j4071628996675_1_alg».proof.Proof.Spec
import Idealize.ShloMosaic.Lib.Pipeline.Value
import Idealize.ShloMosaic.Lib.ValueIdx
import Idealize.ShloMosaic.PureOps.Ideal.Laws

noncomputable section

namespace Cert.Gcn

open Cert.ReferenceIdeal Cert.ReferenceIdeal.Gen Idealize.ShloMosaic Idealize.ShloMosaic.TcCoe Idealize.ShloMosaic.ValueIdx

/-- The host's dense transform of width 128, read at a row and a feature, is the plain sum over the shared axis. -/
theorem lin128_eq (x : (⟨S50000x128, .f32⟩ : BufTy).Contents (Elt Ideal)) (W : (⟨S128x128, .f32⟩ : BufTy).Contents (Elt Ideal)) :
    lin128 (F := Ideal) x W = Cert.Dense.prod128 x W := by
  funext i
  unfold lin128
  simp only [Host.dotGeneral]
  rw [Ideal.dotGeneral_apply, ← Equiv.sum_comp (ValueIdx.contrEquiv1 dot_S50000x128_S128x128_S50000x128_1_0_0_1_n_n 128 rfl rfl).symm]
  show _ = Cert.Dense.dot128 x W (i 0) (i 1)
  unfold Cert.Dense.dot128
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = ix2 (i 0) k := funext fun a => Fin.ext (by
    match a with
    | ⟨0, _⟩ =>
      show (dot_S50000x128_S128x128_S50000x128_1_0_0_1_n_n.lhsIdx i _ 0).val = (i 0).val
      unfold DotDims.lhsIdx
      rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
      rfl
    | ⟨1, _⟩ => exact (dot_S50000x128_S128x128_S50000x128_1_0_0_1_n_n.lhsIdx_val_of_single rfl i _).trans hk)
  have er : dot_S50000x128_S128x128_S50000x128_1_0_0_1_n_n.rhsIdx i ((ValueIdx.contrEquiv1 dot_S50000x128_S128x128_S50000x128_1_0_0_1_n_n 128 rfl rfl).symm k) = ix2 k (i 1) := funext fun a => Fin.ext (by
    match a with
    | ⟨0, _⟩ => exact (dot_S50000x128_S128x128_S50000x128_1_0_0_1_n_n.rhsIdx_val_of_single rfl i _).trans hk
    | ⟨1, _⟩ =>
      show (dot_S50000x128_S128x128_S50000x128_1_0_0_1_n_n.rhsIdx i _ 1).val = (i 1).val
      unfold DotDims.rhsIdx
      rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
      rfl)
  exact congrArg₂ (fun a b => x a * W b) el er

/-- The host's dense transform of width 64, read at a row and a feature, is the plain sum over the shared axis. -/
theorem lin64_eq (x : (⟨S50000x128, .f32⟩ : BufTy).Contents (Elt Ideal)) (W : (⟨S128x64, .f32⟩ : BufTy).Contents (Elt Ideal)) :
    lin64 (F := Ideal) x W = Cert.Dense.prod64 x W := by
  funext i
  unfold lin64
  simp only [Host.dotGeneral]
  rw [Ideal.dotGeneral_apply, ← Equiv.sum_comp (ValueIdx.contrEquiv1 dot_S50000x128_S128x64_S50000x64_1_0_0_1_n_n 128 rfl rfl).symm]
  show _ = Cert.Dense.dot64 x W (i 0) (i 1)
  unfold Cert.Dense.dot64
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx i ((ValueIdx.contrEquiv1 dot_S50000x128_S128x64_S50000x64_1_0_0_1_n_n 128 rfl rfl).symm k) = ix2 (i 0) k := funext fun a => Fin.ext (by
    match a with
    | ⟨0, _⟩ =>
      show (dot_S50000x128_S128x64_S50000x64_1_0_0_1_n_n.lhsIdx i _ 0).val = (i 0).val
      unfold DotDims.lhsIdx
      rw [dif_neg (show ¬(0 : Fin S50000x128.rank) ∈ dot_S50000x128_S128x64_S50000x64_1_0_0_1_n_n.lhsBatch by decide), dif_pos (show (0 : Fin S50000x128.rank) ∈ dot_S50000x128_S128x64_S50000x64_1_0_0_1_n_n.lhsNonContracting by decide)]
      rfl
    | ⟨1, _⟩ => exact (dot_S50000x128_S128x64_S50000x64_1_0_0_1_n_n.lhsIdx_val_of_single rfl i _).trans hk)
  have er : dot_S50000x128_S128x64_S50000x64_1_0_0_1_n_n.rhsIdx i ((ValueIdx.contrEquiv1 dot_S50000x128_S128x64_S50000x64_1_0_0_1_n_n 128 rfl rfl).symm k) = ix2 k (i 1) := funext fun a => Fin.ext (by
    match a with
    | ⟨0, _⟩ => exact (dot_S50000x128_S128x64_S50000x64_1_0_0_1_n_n.rhsIdx_val_of_single rfl i _).trans hk
    | ⟨1, _⟩ =>
      show (dot_S50000x128_S128x64_S50000x64_1_0_0_1_n_n.rhsIdx i _ 1).val = (i 1).val
      unfold DotDims.rhsIdx
      rw [dif_neg (show ¬(1 : Fin S128x64.rank) ∈ dot_S50000x128_S128x64_S50000x64_1_0_0_1_n_n.rhsBatch by decide), dif_pos (show (1 : Fin S128x64.rank) ∈ dot_S50000x128_S128x64_S50000x64_1_0_0_1_n_n.rhsNonContracting by decide)]
      rfl)
  exact congrArg₂ (fun a b => x a * W b) el er

/-- The self-loop term two ways: the product scaled by the column `d²` reshaped to one column (what the launch
    is handed) is the product times `d²` spread over the 128 features (what the reference multiplies by). -/
theorem self128_eq (x : (⟨S50000x128, .f32⟩ : BufTy).Contents (Elt Ideal)) (W : (⟨S128x128, .f32⟩ : BufTy).Contents (Elt Ideal)) (d : (⟨S50000, .f32⟩ : BufTy).Contents (Elt Ideal))
    (h : S50000.ShapeCasts S50000x1) :
    Cert.Dense.self128 x W (shapeCast S50000x1 (mulf (F := Ideal) (φ := .f32) d d) h) = mulf (F := Ideal) (φ := .f32) (Cert.Dense.prod128 x W) (dsq128 (F := Ideal) d) := by
  funext i
  obtain ⟨p, q, rfl⟩ : ∃ (p : Fin 50000) (q : Fin 128), i = ix2 p q := ⟨i 0, i 1, eq_ix2 i⟩
  show Cert.Dense.dot128 x W p q * shapeCast S50000x1 (mulf (F := Ideal) (φ := .f32) d d) h (ix2 p (0 : Fin 1))
    = Cert.Dense.dot128 x W p q * dsq128 (F := Ideal) d (ix2 p q)
  refine congrArg (_ * ·) ?_
  unfold dsq128
  refine (shapeCast_apply (mulf (F := Ideal) (φ := .f32) d d) h (ix2 p (0 : Fin 1)) (ix1 p) ?_).trans
    ((broadcastInDim_apply ![0, 1] bcast_S50000x1_S50000x128_0_1 _ (ix2 p q) (ix2 p (0 : Fin 1)) ?_).trans
      (broadcastInDim_apply ![0] bcast_S50000_S50000x1_0 _ (ix2 p (0 : Fin 1)) (ix1 p) ?_)).symm
  · rw [Shape.rowMajor_val_one, Shape.rowMajor_val_two]
    show p.val = p.val * 1 + 0
    omega
  · intro a
    match a with
    | ⟨0, _⟩ => rfl
    | ⟨1, _⟩ => rfl
  · intro a
    match a with
    | ⟨0, _⟩ => rfl

/-- The self-loop term two ways: the product scaled by the column `d²` reshaped to one column (what the launch
    is handed) is the product times `d²` spread over the 64 features (what the reference multiplies by). -/
theorem self64_eq (x : (⟨S50000x128, .f32⟩ : BufTy).Contents (Elt Ideal)) (W : (⟨S128x64, .f32⟩ : BufTy).Contents (Elt Ideal)) (d : (⟨S50000, .f32⟩ : BufTy).Contents (Elt Ideal))
    (h : S50000.ShapeCasts S50000x1) :
    Cert.Dense.self64 x W (shapeCast S50000x1 (mulf (F := Ideal) (φ := .f32) d d) h) = mulf (F := Ideal) (φ := .f32) (Cert.Dense.prod64 x W) (dsq64 (F := Ideal) d) := by
  funext i
  obtain ⟨p, q, rfl⟩ : ∃ (p : Fin 50000) (q : Fin 64), i = ix2 p q := ⟨i 0, i 1, eq_ix2 i⟩
  show Cert.Dense.dot64 x W p q * shapeCast S50000x1 (mulf (F := Ideal) (φ := .f32) d d) h (ix2 p (0 : Fin 1))
    = Cert.Dense.dot64 x W p q * dsq64 (F := Ideal) d (ix2 p q)
  refine congrArg (_ * ·) ?_
  unfold dsq64
  refine (shapeCast_apply (mulf (F := Ideal) (φ := .f32) d d) h (ix2 p (0 : Fin 1)) (ix1 p) ?_).trans
    ((broadcastInDim_apply ![0, 1] bcast_S50000x1_S50000x64_0_1 _ (ix2 p q) (ix2 p (0 : Fin 1)) ?_).trans
      (broadcastInDim_apply ![0] bcast_S50000_S50000x1_0 _ (ix2 p (0 : Fin 1)) (ix1 p) ?_)).symm
  · rw [Shape.rowMajor_val_one, Shape.rowMajor_val_two]
    show p.val = p.val * 1 + 0
    omega
  · intro a
    match a with
    | ⟨0, _⟩ => rfl
    | ⟨1, _⟩ => rfl
  · intro a
    match a with
    | ⟨0, _⟩ => rfl

end Cert.Gcn

end
-- ==== Proof.KValue.lean ====
/-
  The idealized kernel's results as terms of its arguments.

  The buffers' contents at the seven segment boundaries of @main are followed from the launch memory to the
  return. Before the first launch the host leaves the sources, the targets, the edge weights, the column of
  squared inverse root degrees and (a change of float format being the identity) the features and the weights
  themselves. The first launch leaves the product of features and weights and the product scaled row by row; it
  only reads its other arrays. The middle stretches aggregate, add the bias, rectify: the hidden features. The
  second launch does for the hidden features and the second weights what the first did. The last stretch
  aggregates again — the mean, returned twice — and adds the noise times its exponential — the sample. On the
  extended reals a launch's product IS the host's dense transform and its scaled product IS the transform times the
  squared inverse root degree spread over the features; so the mean and the sample are the shared convolution terms.
-/
import proofs.«113243_j4071628996675_1_alg».proof.Proof.KRun
import proofs.«113243_j4071628996675_1_alg».proof.Proof.Region0
import proofs.«113243_j4071628996675_1_alg».proof.Proof.Region1
import proofs.«113243_j4071628996675_1_alg».proof.Proof.KStretchPre
import proofs.«113243_j4071628996675_1_alg».proof.Proof.KStretchMid
import proofs.«113243_j4071628996675_1_alg».proof.Proof.KStretchTail
import proofs.«113243_j4071628996675_1_alg».proof.Proof.RefLin

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-! ## At the first launch's entry -/

theorem src1 : W1 m ρ c (Proc.devRef .tc main_v1) = (Cert.Gcn.srcRow (m ((c : Thread nD τ).loc main_arg1))) := Stretch.pre_src (W0 m ρ c)
theorem dst1 : W1 m ρ c (Proc.devRef .tc main_v3) = (Cert.Gcn.dstRow (m ((c : Thread nD τ).loc main_arg1))) := Stretch.pre_dst (W0 m ρ c)
theorem nrm1 : W1 m ρ c (Proc.devRef .tc main_v28) = (Cert.Gcn.norm (Cert.Gcn.srcRow (m ((c : Thread nD τ).loc main_arg1))) (Cert.Gcn.dstRow (m ((c : Thread nD τ).loc main_arg1)))) := Stretch.pre_norm (W0 m ρ c)
theorem dcol1 : W1 m ρ c (Proc.devRef .tc main_v13) = (shapeCast S50000x1 (mulf (F := Ideal) (φ := .f32) (Cert.Gcn.dinv (Cert.Gcn.dstRow (m ((c : Thread nD τ).loc main_arg1)))) (Cert.Gcn.dinv (Cert.Gcn.dstRow (m ((c : Thread nD τ).loc main_arg1))))) shapeCasts_S50000_S50000x1) := Stretch.pre_dcol (W0 m ρ c)
theorem x1 : W1 m ρ c (Proc.devRef .tc main_v29) = (m ((c : Thread nD τ).loc main_arg0)) := Stretch.pre_x (W0 m ρ c)
theorem w1 : W1 m ρ c (Proc.devRef .tc main_v30) = (m ((c : Thread nD τ).loc main_arg2)) := Stretch.pre_w (W0 m ρ c)
theorem arg1_3 : W1 m ρ c (Proc.devRef .tc main_arg3) = (m ((c : Thread nD τ).loc main_arg3)) := Stretch.pre_keep (W0 m ρ c) main_arg3 (.inl rfl)
theorem arg1_4 : W1 m ρ c (Proc.devRef .tc main_arg4) = (m ((c : Thread nD τ).loc main_arg4)) := Stretch.pre_keep (W0 m ρ c) main_arg4 (.inr (.inl rfl))
theorem arg1_5 : W1 m ρ c (Proc.devRef .tc main_arg5) = (m ((c : Thread nD τ).loc main_arg5)) := Stretch.pre_keep (W0 m ρ c) main_arg5 (.inr (.inr (.inl rfl)))
theorem arg1_8 : W1 m ρ c (Proc.devRef .tc main_arg8) = (m ((c : Thread nD τ).loc main_arg8)) := Stretch.pre_keep (W0 m ρ c) main_arg8 (.inr (.inr (.inr rfl)))

/-! ## At the first launch's exit -/

theorem y2 : W2 m ρ c (Proc.devRef .tc main_v31_0) = (Cert.Dense.prod128 (m ((c : Thread nD τ).loc main_arg0)) (m ((c : Thread nD τ).loc main_arg2))) := by
  refine (W2_arr m ρ c 3).trans ((Dense0.final3 (V1 m ρ) c).trans ?_)
  show Cert.Dense.prod128 (W1 m ρ c (Proc.devRef .tc main_v29)) (W1 m ρ c (Proc.devRef .tc main_v30)) = _
  rw [x1 m ρ c, w1 m ρ c]

theorem s2 : W2 m ρ c (Proc.devRef .tc main_v31_1) = (Cert.Dense.self128 (m ((c : Thread nD τ).loc main_arg0)) (m ((c : Thread nD τ).loc main_arg2)) (shapeCast S50000x1 (mulf (F := Ideal) (φ := .f32) (Cert.Gcn.dinv (Cert.Gcn.dstRow (m ((c : Thread nD τ).loc main_arg1)))) (Cert.Gcn.dinv (Cert.Gcn.dstRow (m ((c : Thread nD τ).loc main_arg1))))) shapeCasts_S50000_S50000x1)) := by
  refine (W2_arr m ρ c 4).trans ((Dense0.final4 (V1 m ρ) c).trans ?_)
  show Cert.Dense.self128 (W1 m ρ c (Proc.devRef .tc main_v29)) (W1 m ρ c (Proc.devRef .tc main_v30)) (W1 m ρ c (Proc.devRef .tc main_v13)) = _
  rw [x1 m ρ c, w1 m ρ c, dcol1 m ρ c]

/-- The first launch only reads the column of squared inverse root degrees. -/
theorem dcol2 : W2 m ρ c (Proc.devRef .tc main_v13) = (shapeCast S50000x1 (mulf (F := Ideal) (φ := .f32) (Cert.Gcn.dinv (Cert.Gcn.dstRow (m ((c : Thread nD τ).loc main_arg1)))) (Cert.Gcn.dinv (Cert.Gcn.dstRow (m ((c : Thread nD τ).loc main_arg1))))) shapeCasts_S50000_S50000x1) :=
  (W2_arr m ρ c 2).trans ((((dat0 (F := Ideal) (V1 m ρ) c).arrAt_in 2 rfl cfg0.N).trans (A_eq0 (V1 m ρ) c 2)).trans (dcol1 m ρ c))

theorem src2 : W2 m ρ c (Proc.devRef .tc main_v1) = (Cert.Gcn.srcRow (m ((c : Thread nD τ).loc main_arg1))) := (W2_of_ne m ρ c main_v1 (by decide)).trans (src1 m ρ c)
theorem dst2 : W2 m ρ c (Proc.devRef .tc main_v3) = (Cert.Gcn.dstRow (m ((c : Thread nD τ).loc main_arg1))) := (W2_of_ne m ρ c main_v3 (by decide)).trans (dst1 m ρ c)
theorem nrm2 : W2 m ρ c (Proc.devRef .tc main_v28) = (Cert.Gcn.norm (Cert.Gcn.srcRow (m ((c : Thread nD τ).loc main_arg1))) (Cert.Gcn.dstRow (m ((c : Thread nD τ).loc main_arg1)))) := (W2_of_ne m ρ c main_v28 (by decide)).trans (nrm1 m ρ c)
theorem arg2_3 : W2 m ρ c (Proc.devRef .tc main_arg3) = (m ((c : Thread nD τ).loc main_arg3)) := (W2_of_ne m ρ c main_arg3 (by decide)).trans (arg1_3 m ρ c)
theorem arg2_4 : W2 m ρ c (Proc.devRef .tc main_arg4) = (m ((c : Thread nD τ).loc main_arg4)) := (W2_of_ne m ρ c main_arg4 (by decide)).trans (arg1_4 m ρ c)
theorem arg2_5 : W2 m ρ c (Proc.devRef .tc main_arg5) = (m ((c : Thread nD τ).loc main_arg5)) := (W2_of_ne m ρ c main_arg5 (by decide)).trans (arg1_5 m ρ c)
theorem arg2_8 : W2 m ρ c (Proc.devRef .tc main_arg8) = (m ((c : Thread nD τ).loc main_arg8)) := (W2_of_ne m ρ c main_arg8 (by decide)).trans (arg1_8 m ρ c)

/-! ## At the second launch's entry -/

/-- The hidden features, as the kernel computes them. -/
theorem h5 : W5 m ρ c (Proc.devRef .tc main_v50) = (Cert.Gcn.relu128 (Cert.Gcn.agg128 (Cert.Gcn.srcRow (m ((c : Thread nD τ).loc main_arg1))) (Cert.Gcn.dstRow (m ((c : Thread nD τ).loc main_arg1))) (Cert.Gcn.norm (Cert.Gcn.srcRow (m ((c : Thread nD τ).loc main_arg1))) (Cert.Gcn.dstRow (m ((c : Thread nD τ).loc main_arg1)))) (Cert.Dense.prod128 (m ((c : Thread nD τ).loc main_arg0)) (m ((c : Thread nD τ).loc main_arg2))) (Cert.Dense.self128 (m ((c : Thread nD τ).loc main_arg0)) (m ((c : Thread nD τ).loc main_arg2)) (shapeCast S50000x1 (mulf (F := Ideal) (φ := .f32) (Cert.Gcn.dinv (Cert.Gcn.dstRow (m ((c : Thread nD τ).loc main_arg1)))) (Cert.Gcn.dinv (Cert.Gcn.dstRow (m ((c : Thread nD τ).loc main_arg1))))) shapeCasts_S50000_S50000x1)) (m ((c : Thread nD τ).loc main_arg3)))) := by
  refine (Stretch.mid_h (W2 m ρ c)).trans ?_
  rw [src2 m ρ c, dst2 m ρ c, nrm2 m ρ c, y2 m ρ c, s2 m ρ c, arg2_3 m ρ c]

theorem w5 : W5 m ρ c (Proc.devRef .tc main_v51) = (m ((c : Thread nD τ).loc main_arg4)) := (Stretch.mid_w (W2 m ρ c)).trans (arg2_4 m ρ c)
theorem src5 : W5 m ρ c (Proc.devRef .tc main_v1) = (Cert.Gcn.srcRow (m ((c : Thread nD τ).loc main_arg1))) := (Stretch.mid_keep (W2 m ρ c) main_v1 (.inl rfl)).trans (src2 m ρ c)
theorem dst5 : W5 m ρ c (Proc.devRef .tc main_v3) = (Cert.Gcn.dstRow (m ((c : Thread nD τ).loc main_arg1))) := (Stretch.mid_keep (W2 m ρ c) main_v3 (.inr (.inl rfl))).trans (dst2 m ρ c)
theorem nrm5 : W5 m ρ c (Proc.devRef .tc main_v28) = (Cert.Gcn.norm (Cert.Gcn.srcRow (m ((c : Thread nD τ).loc main_arg1))) (Cert.Gcn.dstRow (m ((c : Thread nD τ).loc main_arg1)))) := (Stretch.mid_keep (W2 m ρ c) main_v28 (.inr (.inr (.inl rfl)))).trans (nrm2 m ρ c)
theorem dcol5 : W5 m ρ c (Proc.devRef .tc main_v13) = (shapeCast S50000x1 (mulf (F := Ideal) (φ := .f32) (Cert.Gcn.dinv (Cert.Gcn.dstRow (m ((c : Thread nD τ).loc main_arg1)))) (Cert.Gcn.dinv (Cert.Gcn.dstRow (m ((c : Thread nD τ).loc main_arg1))))) shapeCasts_S50000_S50000x1) := (Stretch.mid_keep (W2 m ρ c) main_v13 (.inr (.inr (.inr (.inl rfl))))).trans (dcol2 m ρ c)
theorem arg5_5 : W5 m ρ c (Proc.devRef .tc main_arg5) = (m ((c : Thread nD τ).loc main_arg5)) := (Stretch.mid_keep (W2 m ρ c) main_arg5 (.inr (.inr (.inr (.inr (.inl rfl)))))).trans (arg2_5 m ρ c)
theorem arg5_8 : W5 m ρ c (Proc.devRef .tc main_arg8) = (m ((c : Thread nD τ).loc main_arg8)) := (Stretch.mid_keep (W2 m ρ c) main_arg8 (.inr (.inr (.inr (.inr (.inr rfl)))))).trans (arg2_8 m ρ c)

/-! ## At the second launch's exit -/

theorem y6 : W6 m ρ c (Proc.devRef .tc main_v52_0) = (Cert.Dense.prod64 (Cert.Gcn.relu128 (Cert.Gcn.agg128 (Cert.Gcn.srcRow (m ((c : Thread nD τ).loc main_arg1))) (Cert.Gcn.dstRow (m ((c : Thread nD τ).loc main_arg1))) (Cert.Gcn.norm (Cert.Gcn.srcRow (m ((c : Thread nD τ).loc main_arg1))) (Cert.Gcn.dstRow (m ((c : Thread nD τ).loc main_arg1)))) (Cert.Dense.prod128 (m ((c : Thread nD τ).loc main_arg0)) (m ((c : Thread nD τ).loc main_arg2))) (Cert.Dense.self128 (m ((c : Thread nD τ).loc main_arg0)) (m ((c : Thread nD τ).loc main_arg2)) (shapeCast S50000x1 (mulf (F := Ideal) (φ := .f32) (Cert.Gcn.dinv (Cert.Gcn.dstRow (m ((c : Thread nD τ).loc main_arg1)))) (Cert.Gcn.dinv (Cert.Gcn.dstRow (m ((c : Thread nD τ).loc main_arg1))))) shapeCasts_S50000_S50000x1)) (m ((c : Thread nD τ).loc main_arg3)))) (m ((c : Thread nD τ).loc main_arg4))) := by
  refine (W6_arr m ρ c 3).trans ((Dense1.final3 (V5 m ρ) c).trans ?_)
  show Cert.Dense.prod64 (W5 m ρ c (Proc.devRef .tc main_v50)) (W5 m ρ c (Proc.devRef .tc main_v51)) = _
  rw [h5 m ρ c, w5 m ρ c]

theorem s6 : W6 m ρ c (Proc.devRef .tc main_v52_1) = (Cert.Dense.self64 (Cert.Gcn.relu128 (Cert.Gcn.agg128 (Cert.Gcn.srcRow (m ((c : Thread nD τ).loc main_arg1))) (Cert.Gcn.dstRow (m ((c : Thread nD τ).loc main_arg1))) (Cert.Gcn.norm (Cert.Gcn.srcRow (m ((c : Thread nD τ).loc main_arg1))) (Cert.Gcn.dstRow (m ((c : Thread nD τ).loc main_arg1)))) (Cert.Dense.prod128 (m ((c : Thread nD τ).loc main_arg0)) (m ((c : Thread nD τ).loc main_arg2))) (Cert.Dense.self128 (m ((c : Thread nD τ).loc main_arg0)) (m ((c : Thread nD τ).loc main_arg2)) (shapeCast S50000x1 (mulf (F := Ideal) (φ := .f32) (Cert.Gcn.dinv (Cert.Gcn.dstRow (m ((c : Thread nD τ).loc main_arg1)))) (Cert.Gcn.dinv (Cert.Gcn.dstRow (m ((c : Thread nD τ).loc main_arg1))))) shapeCasts_S50000_S50000x1)) (m ((c : Thread nD τ).loc main_arg3)))) (m ((c : Thread nD τ).loc main_arg4)) (shapeCast S50000x1 (mulf (F := Ideal) (φ := .f32) (Cert.Gcn.dinv (Cert.Gcn.dstRow (m ((c : Thread nD τ).loc main_arg1)))) (Cert.Gcn.dinv (Cert.Gcn.dstRow (m ((c : Thread nD τ).loc main_arg1))))) shapeCasts_S50000_S50000x1)) := by
  refine (W6_arr m ρ c 4).trans ((Dense1.final4 (V5 m ρ) c).trans ?_)
  show Cert.Dense.self64 (W5 m ρ c (Proc.devRef .tc main_v50)) (W5 m ρ c (Proc.devRef .tc main_v51)) (W5 m ρ c (Proc.devRef .tc main_v13)) = _
  rw [h5 m ρ c, w5 m ρ c, dcol5 m ρ c]

theorem src6 : W6 m ρ c (Proc.devRef .tc main_v1) = (Cert.Gcn.srcRow (m ((c : Thread nD τ).loc main_arg1))) := (W6_of_ne m ρ c main_v1 (by decide)).trans (src5 m ρ c)
theorem dst6 : W6 m ρ c (Proc.devRef .tc main_v3) = (Cert.Gcn.dstRow (m ((c : Thread nD τ).loc main_arg1))) := (W6_of_ne m ρ c main_v3 (by decide)).trans (dst5 m ρ c)
theorem nrm6 : W6 m ρ c (Proc.devRef .tc main_v28) = (Cert.Gcn.norm (Cert.Gcn.srcRow (m ((c : Thread nD τ).loc main_arg1))) (Cert.Gcn.dstRow (m ((c : Thread nD τ).loc main_arg1)))) := (W6_of_ne m ρ c main_v28 (by decide)).trans (nrm5 m ρ c)
theorem arg6_5 : W6 m ρ c (Proc.devRef .tc main_arg5) = (m ((c : Thread nD τ).loc main_arg5)) := (W6_of_ne m ρ c main_arg5 (by decide)).trans (arg5_5 m ρ c)
theorem arg6_8 : W6 m ρ c (Proc.devRef .tc main_arg8) = (m ((c : Thread nD τ).loc main_arg8)) := (W6_of_ne m ρ c main_arg8 (by decide)).trans (arg5_8 m ρ c)

/-! ## At the return -/

/-- The mean, as the kernel computes it. -/
theorem mu7 : W7 m ρ c (Proc.devRef .tc main_v69) = (Cert.Gcn.agg64 (Cert.Gcn.srcRow (m ((c : Thread nD τ).loc main_arg1))) (Cert.Gcn.dstRow (m ((c : Thread nD τ).loc main_arg1))) (Cert.Gcn.norm (Cert.Gcn.srcRow (m ((c : Thread nD τ).loc main_arg1))) (Cert.Gcn.dstRow (m ((c : Thread nD τ).loc main_arg1)))) (Cert.Dense.prod64 (Cert.Gcn.relu128 (Cert.Gcn.agg128 (Cert.Gcn.srcRow (m ((c : Thread nD τ).loc main_arg1))) (Cert.Gcn.dstRow (m ((c : Thread nD τ).loc main_arg1))) (Cert.Gcn.norm (Cert.Gcn.srcRow (m ((c : Thread nD τ).loc main_arg1))) (Cert.Gcn.dstRow (m ((c : Thread nD τ).loc main_arg1)))) (Cert.Dense.prod128 (m ((c : Thread nD τ).loc main_arg0)) (m ((c : Thread nD τ).loc main_arg2))) (Cert.Dense.self128 (m ((c : Thread nD τ).loc main_arg0)) (m ((c : Thread nD τ).loc main_arg2)) (shapeCast S50000x1 (mulf (F := Ideal) (φ := .f32) (Cert.Gcn.dinv (Cert.Gcn.dstRow (m ((c : Thread nD τ).loc main_arg1)))) (Cert.Gcn.dinv (Cert.Gcn.dstRow (m ((c : Thread nD τ).loc main_arg1))))) shapeCasts_S50000_S50000x1)) (m ((c : Thread nD τ).loc main_arg3)))) (m ((c : Thread nD τ).loc main_arg4))) (Cert.Dense.self64 (Cert.Gcn.relu128 (Cert.Gcn.agg128 (Cert.Gcn.srcRow (m ((c : Thread nD τ).loc main_arg1))) (Cert.Gcn.dstRow (m ((c : Thread nD τ).loc main_arg1))) (Cert.Gcn.norm (Cert.Gcn.srcRow (m ((c : Thread nD τ).loc main_arg1))) (Cert.Gcn.dstRow (m ((c : Thread nD τ).loc main_arg1)))) (Cert.Dense.prod128 (m ((c : Thread nD τ).loc main_arg0)) (m ((c : Thread nD τ).loc main_arg2))) (Cert.Dense.self128 (m ((c : Thread nD τ).loc main_arg0)) (m ((c : Thread nD τ).loc main_arg2)) (shapeCast S50000x1 (mulf (F := Ideal) (φ := .f32) (Cert.Gcn.dinv (Cert.Gcn.dstRow (m ((c : Thread nD τ).loc main_arg1)))) (Cert.Gcn.dinv (Cert.Gcn.dstRow (m ((c : Thread nD τ).loc main_arg1))))) shapeCasts_S50000_S50000x1)) (m ((c : Thread nD τ).loc main_arg3)))) (m ((c : Thread nD τ).loc main_arg4)) (shapeCast S50000x1 (mulf (F := Ideal) (φ := .f32) (Cert.Gcn.dinv (Cert.Gcn.dstRow (m ((c : Thread nD τ).loc main_arg1)))) (Cert.Gcn.dinv (Cert.Gcn.dstRow (m ((c : Thread nD τ).loc main_arg1))))) shapeCasts_S50000_S50000x1)) (m ((c : Thread nD τ).loc main_arg5))) := by
  refine (Stretch.tail_mu (W6 m ρ c)).trans ?_
  rw [src6 m ρ c, dst6 m ρ c, nrm6 m ρ c, y6 m ρ c, s6 m ρ c, arg6_5 m ρ c]

/-- The sample, as the kernel computes it. -/
theorem sample7 : W7 m ρ c (Proc.devRef .tc main_v72) = Cert.Gcn.sample (Cert.Gcn.agg64 (Cert.Gcn.srcRow (m ((c : Thread nD τ).loc main_arg1))) (Cert.Gcn.dstRow (m ((c : Thread nD τ).loc main_arg1))) (Cert.Gcn.norm (Cert.Gcn.srcRow (m ((c : Thread nD τ).loc main_arg1))) (Cert.Gcn.dstRow (m ((c : Thread nD τ).loc main_arg1)))) (Cert.Dense.prod64 (Cert.Gcn.relu128 (Cert.Gcn.agg128 (Cert.Gcn.srcRow (m ((c : Thread nD τ).loc main_arg1))) (Cert.Gcn.dstRow (m ((c : Thread nD τ).loc main_arg1))) (Cert.Gcn.norm (Cert.Gcn.srcRow (m ((c : Thread nD τ).loc main_arg1))) (Cert.Gcn.dstRow (m ((c : Thread nD τ).loc main_arg1)))) (Cert.Dense.prod128 (m ((c : Thread nD τ).loc main_arg0)) (m ((c : Thread nD τ).loc main_arg2))) (Cert.Dense.self128 (m ((c : Thread nD τ).loc main_arg0)) (m ((c : Thread nD τ).loc main_arg2)) (shapeCast S50000x1 (mulf (F := Ideal) (φ := .f32) (Cert.Gcn.dinv (Cert.Gcn.dstRow (m ((c : Thread nD τ).loc main_arg1)))) (Cert.Gcn.dinv (Cert.Gcn.dstRow (m ((c : Thread nD τ).loc main_arg1))))) shapeCasts_S50000_S50000x1)) (m ((c : Thread nD τ).loc main_arg3)))) (m ((c : Thread nD τ).loc main_arg4))) (Cert.Dense.self64 (Cert.Gcn.relu128 (Cert.Gcn.agg128 (Cert.Gcn.srcRow (m ((c : Thread nD τ).loc main_arg1))) (Cert.Gcn.dstRow (m ((c : Thread nD τ).loc main_arg1))) (Cert.Gcn.norm (Cert.Gcn.srcRow (m ((c : Thread nD τ).loc main_arg1))) (Cert.Gcn.dstRow (m ((c : Thread nD τ).loc main_arg1)))) (Cert.Dense.prod128 (m ((c : Thread nD τ).loc main_arg0)) (m ((c : Thread nD τ).loc main_arg2))) (Cert.Dense.self128 (m ((c : Thread nD τ).loc main_arg0)) (m ((c : Thread nD τ).loc main_arg2)) (shapeCast S50000x1 (mulf (F := Ideal) (φ := .f32) (Cert.Gcn.dinv (Cert.Gcn.dstRow (m ((c : Thread nD τ).loc main_arg1)))) (Cert.Gcn.dinv (Cert.Gcn.dstRow (m ((c : Thread nD τ).loc main_arg1))))) shapeCasts_S50000_S50000x1)) (m ((c : Thread nD τ).loc main_arg3)))) (m ((c : Thread nD τ).loc main_arg4)) (shapeCast S50000x1 (mulf (F := Ideal) (φ := .f32) (Cert.Gcn.dinv (Cert.Gcn.dstRow (m ((c : Thread nD τ).loc main_arg1)))) (Cert.Gcn.dinv (Cert.Gcn.dstRow (m ((c : Thread nD τ).loc main_arg1))))) shapeCasts_S50000_S50000x1)) (m ((c : Thread nD τ).loc main_arg5))) (m ((c : Thread nD τ).loc main_arg8)) := by
  refine (Stretch.tail_sample (W6 m ρ c)).trans ?_
  rw [src6 m ρ c, dst6 m ρ c, nrm6 m ρ c, y6 m ρ c, s6 m ρ c, arg6_5 m ρ c, arg6_8 m ρ c]

/-! ## The kernel's terms are the shared ones -/

/-- A launch's product is the host's dense transform, its scaled product the transform times the squared inverse root
    degree spread over the features: the kernel's mean is the convolution term. -/
theorem muK_eq : (Cert.Gcn.agg64 (Cert.Gcn.srcRow (m ((c : Thread nD τ).loc main_arg1))) (Cert.Gcn.dstRow (m ((c : Thread nD τ).loc main_arg1))) (Cert.Gcn.norm (Cert.Gcn.srcRow (m ((c : Thread nD τ).loc main_arg1))) (Cert.Gcn.dstRow (m ((c : Thread nD τ).loc main_arg1)))) (Cert.Dense.prod64 (Cert.Gcn.relu128 (Cert.Gcn.agg128 (Cert.Gcn.srcRow (m ((c : Thread nD τ).loc main_arg1))) (Cert.Gcn.dstRow (m ((c : Thread nD τ).loc main_arg1))) (Cert.Gcn.norm (Cert.Gcn.srcRow (m ((c : Thread nD τ).loc main_arg1))) (Cert.Gcn.dstRow (m ((c : Thread nD τ).loc main_arg1)))) (Cert.Dense.prod128 (m ((c : Thread nD τ).loc main_arg0)) (m ((c : Thread nD τ).loc main_arg2))) (Cert.Dense.self128 (m ((c : Thread nD τ).loc main_arg0)) (m ((c : Thread nD τ).loc main_arg2)) (shapeCast S50000x1 (mulf (F := Ideal) (φ := .f32) (Cert.Gcn.dinv (Cert.Gcn.dstRow (m ((c : Thread nD τ).loc main_arg1)))) (Cert.Gcn.dinv (Cert.Gcn.dstRow (m ((c : Thread nD τ).loc main_arg1))))) shapeCasts_S50000_S50000x1)) (m ((c : Thread nD τ).loc main_arg3)))) (m ((c : Thread nD τ).loc main_arg4))) (Cert.Dense.self64 (Cert.Gcn.relu128 (Cert.Gcn.agg128 (Cert.Gcn.srcRow (m ((c : Thread nD τ).loc main_arg1))) (Cert.Gcn.dstRow (m ((c : Thread nD τ).loc main_arg1))) (Cert.Gcn.norm (Cert.Gcn.srcRow (m ((c : Thread nD τ).loc main_arg1))) (Cert.Gcn.dstRow (m ((c : Thread nD τ).loc main_arg1)))) (Cert.Dense.prod128 (m ((c : Thread nD τ).loc main_arg0)) (m ((c : Thread nD τ).loc main_arg2))) (Cert.Dense.self128 (m ((c : Thread nD τ).loc main_arg0)) (m ((c : Thread nD τ).loc main_arg2)) (shapeCast S50000x1 (mulf (F := Ideal) (φ := .f32) (Cert.Gcn.dinv (Cert.Gcn.dstRow (m ((c : Thread nD τ).loc main_arg1)))) (Cert.Gcn.dinv (Cert.Gcn.dstRow (m ((c : Thread nD τ).loc main_arg1))))) shapeCasts_S50000_S50000x1)) (m ((c : Thread nD τ).loc main_arg3)))) (m ((c : Thread nD τ).loc main_arg4)) (shapeCast S50000x1 (mulf (F := Ideal) (φ := .f32) (Cert.Gcn.dinv (Cert.Gcn.dstRow (m ((c : Thread nD τ).loc main_arg1)))) (Cert.Gcn.dinv (Cert.Gcn.dstRow (m ((c : Thread nD τ).loc main_arg1))))) shapeCasts_S50000_S50000x1)) (m ((c : Thread nD τ).loc main_arg5))) = (Cert.Gcn.mu (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5))) := by
  unfold Cert.Gcn.mu Cert.Gcn.hidden
  rw [Cert.Gcn.self64_eq, Cert.Gcn.self128_eq, ← Cert.Gcn.lin128_eq, ← Cert.Gcn.lin64_eq]

theorem mu7_eq : W7 m ρ c (Proc.devRef .tc main_v69) = (Cert.Gcn.mu (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5))) := (mu7 m ρ c).trans (muK_eq m c)

theorem sample7_eq : W7 m ρ c (Proc.devRef .tc main_v72) = Cert.Gcn.sample (Cert.Gcn.mu (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg8)) :=
  (sample7 m ρ c).trans (congrArg (Cert.Gcn.sample · (m ((c : Thread nD τ).loc main_arg8))) (muK_eq m c))

end Cert.KernelIdeal.Whole

end
-- ==== Proof.RefSide.lean ====
/-
  The reference's three results are the shared convolution terms.

  The reference applies the first layer, rectifies, and applies the second layer twice with the same weights: its
  mean and its log-deviation are one and the same term of the arguments, and its sample is that term plus the noise
  times the term's exponential. Nothing is computed here: the run's result terms, written out, ARE these
  compositions.
-/
import proofs.«113243_j4071628996675_1_alg».proof.Proof.Gen.ReferenceIdeal.Run
import proofs.«113243_j4071628996675_1_alg».proof.Proof.Conv

set_option maxRecDepth 16384

noncomputable section

namespace Cert.ReferenceIdeal.Shape3

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

/-- The mean. -/
theorem out0_eq : res_out0 m c = Cert.Gcn.mu (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) := by
  show res_main_v86 m c = _
  unfold res_main_v86
  simp only [Cert.Gcn.mu, Cert.Gcn.hidden, Cert.Gcn.agg64, Cert.Gcn.agg128, Cert.Gcn.relu128, Cert.Gcn.lin64, Cert.Gcn.lin128, Cert.Gcn.dsq64, Cert.Gcn.dsq128, Cert.Gcn.norm, Cert.Gcn.dinv, Cert.Gcn.col, Cert.Gcn.wrap, Cert.Gcn.srcRow, Cert.Gcn.dstRow, Cert.Gcn.sample]

/-- The log-deviation: the same term. -/
theorem out1_eq : res_out1 m c = Cert.Gcn.mu (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) := by
  show res_main_v123 m c = _
  unfold res_main_v123
  simp only [Cert.Gcn.mu, Cert.Gcn.hidden, Cert.Gcn.agg64, Cert.Gcn.agg128, Cert.Gcn.relu128, Cert.Gcn.lin64, Cert.Gcn.lin128, Cert.Gcn.dsq64, Cert.Gcn.dsq128, Cert.Gcn.norm, Cert.Gcn.dinv, Cert.Gcn.col, Cert.Gcn.wrap, Cert.Gcn.srcRow, Cert.Gcn.dstRow, Cert.Gcn.sample]

/-- The sample. -/
theorem out2_eq : res_out2 m c = Cert.Gcn.sample (Cert.Gcn.mu (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))) (m ((c.tc : Thread nD τ).loc main_arg8)) := by
  show res_main_v126 m c = _
  unfold res_main_v126
  simp only [Cert.Gcn.mu, Cert.Gcn.hidden, Cert.Gcn.agg64, Cert.Gcn.agg128, Cert.Gcn.relu128, Cert.Gcn.lin64, Cert.Gcn.lin128, Cert.Gcn.dsq64, Cert.Gcn.dsq128, Cert.Gcn.norm, Cert.Gcn.dinv, Cert.Gcn.col, Cert.Gcn.wrap, Cert.Gcn.srcRow, Cert.Gcn.dstRow, Cert.Gcn.sample]

end Cert.ReferenceIdeal.Shape3

end
-- ==== Proof.lean ====
/-
  The certificate: a two-layer graph convolution with its dense transforms on the TensorCore, against the same
  network written with whole-array operations.

  Both programs compute, per layer, the degree-normalised sum over incoming edges of the transformed features, plus
  the transformed features of the node itself scaled by its squared inverse root degree, plus a bias; the hidden
  layer is rectified, the second layer gives the mean (returned also as the log-deviation: the same weights are
  used for both), and the sample is the mean plus noise times the exponential of the mean. The kernel hands the
  dense transform and the self-loop scaling of each layer to a launch over five blocks of 10000 nodes and keeps
  the edge gather and scatter on the host; on the extended reals a block product into a zero accumulator is the
  host's matrix product, a change of float format is the identity, and the column of squared inverse root degrees
  reads the same entry either way. No algebraic law beyond that is used, so the finiteness of the inputs is never
  opened. The three frames are the generated frame certificates (the reference's: its run with the results
  dropped); the idealization rewrote nothing, so `preserves` is trivial.
-/
import proofs.«113243_j4071628996675_1_alg».proof.Defs
import proofs.«113243_j4071628996675_1_alg».proof.Proof.Gen.Kernel
import proofs.«113243_j4071628996675_1_alg».proof.Proof.Gen.Kernel.Skeleton
import proofs.«113243_j4071628996675_1_alg».proof.Proof.Gen.Kernel.Launch
import proofs.«113243_j4071628996675_1_alg».proof.Proof.Gen.Kernel.Points
import proofs.«113243_j4071628996675_1_alg».proof.Proof.Gen.Kernel.Frame
import proofs.«113243_j4071628996675_1_alg».proof.Proof.Gen.KernelIdeal
import proofs.«113243_j4071628996675_1_alg».proof.Proof.Gen.KernelIdeal.Skeleton
import proofs.«113243_j4071628996675_1_alg».proof.Proof.Gen.KernelIdeal.Launch
import proofs.«113243_j4071628996675_1_alg».proof.Proof.Gen.KernelIdeal.Points
import proofs.«113243_j4071628996675_1_alg».proof.Proof.Gen.KernelIdeal.Frame
import proofs.«113243_j4071628996675_1_alg».proof.Proof.Gen.ReferenceIdeal
import proofs.«113243_j4071628996675_1_alg».proof.Proof.Gen.ReferenceIdeal.Run
import proofs.«113243_j4071628996675_1_alg».proof.Proof.Gen.Pre_finite_inputs
import proofs.«113243_j4071628996675_1_alg».proof.Proof.KRun
import proofs.«113243_j4071628996675_1_alg».proof.Proof.KValue
import proofs.«113243_j4071628996675_1_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2.2) (Cert.ReferenceIdeal.Value.run (F := Ideal) m ρ)

/-- Both programs end with the mean, the mean again, and the sample, as the shared convolution terms of arguments
    that agree. -/
theorem algebraic : Cert.algebraic_KernelIdeal_ReferenceIdeal := by
  intro m ρ m' ρ' _ hagree
  refine ⟨fun c => (Cert.Gcn.mu (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))), fun c => (Cert.Gcn.mu (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))),
    fun c => Cert.Gcn.sample (Cert.Gcn.mu (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.Whole.run_at m ρ)
    exact ⟨(h c Cert.KernelIdeal.main_v69 (by decide)).trans (Cert.KernelIdeal.Whole.mu7_eq m ρ c),
      (h c Cert.KernelIdeal.main_v69 (by decide)).trans (Cert.KernelIdeal.Whole.mu7_eq m ρ c),
      (h c Cert.KernelIdeal.main_v72 (by decide)).trans (Cert.KernelIdeal.Whole.sample7_eq m ρ c),
      (h c Cert.KernelIdeal.main_arg0 (by decide)).trans (Cert.KernelIdeal.Gen.W7_main_arg0 m ρ c),
      (h c Cert.KernelIdeal.main_arg1 (by decide)).trans (Cert.KernelIdeal.Gen.W7_main_arg1 m ρ c),
      (h c Cert.KernelIdeal.main_arg2 (by decide)).trans (Cert.KernelIdeal.Gen.W7_main_arg2 m ρ c),
      (h c Cert.KernelIdeal.main_arg3 (by decide)).trans (Cert.KernelIdeal.Gen.W7_main_arg3 m ρ c),
      (h c Cert.KernelIdeal.main_arg4 (by decide)).trans (Cert.KernelIdeal.Gen.W7_main_arg4 m ρ c),
      (h c Cert.KernelIdeal.main_arg5 (by decide)).trans (Cert.KernelIdeal.Gen.W7_main_arg5 m ρ c),
      (h c Cert.KernelIdeal.main_arg6 (by decide)).trans (Cert.KernelIdeal.Gen.W7_main_arg6 m ρ c),
      (h c Cert.KernelIdeal.main_arg7 (by decide)).trans (Cert.KernelIdeal.Gen.W7_main_arg7 m ρ c),
      (h c Cert.KernelIdeal.main_arg8 (by decide)).trans (Cert.KernelIdeal.Gen.W7_main_arg8 m ρ c)⟩
  · refine (θ_run Cert.ReferenceIdeal.defs _ _).mono (fun r h c => ?_) (Cert.ReferenceIdeal.Value.run (F := Ideal) m' ρ')
    obtain ⟨a0, a1, a2, a3, a4, a5, _, _, a8⟩ := hagree c
    refine ⟨(h c).1.trans ((Cert.ReferenceIdeal.Shape3.out0_eq m' c).trans ?_),
      (h c).2.1.trans ((Cert.ReferenceIdeal.Shape3.out1_eq m' c).trans ?_),
      (h c).2.2.1.trans ((Cert.ReferenceIdeal.Shape3.out2_eq m' c).trans ?_), (h c).2.2.2⟩
    · rw [a0, a1, a2, a3, a4, a5]
    · rw [a0, a1, a2, a3, a4, a5]
    · rw [a0, a1, a2, a3, a4, a5, a8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
